-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x3 : Shape := ⟨3, ![8, 256, 3]⟩
abbrev S8x256x256x2 : Shape := ⟨4, ![8, 256, 256, 2]⟩
abbrev S8 : Shape := ⟨1, ![8]⟩
abbrev S169x64 : Shape := ⟨2, ![169, 64]⟩
abbrev S50000x64 : Shape := ⟨2, ![50000, 64]⟩
abbrev S10000x64 : Shape := ⟨2, ![10000, 64]⟩
abbrev S2x64 : Shape := ⟨2, ![2, 64]⟩
abbrev S_ : Shape := ⟨0, ![]⟩

class Facts : Prop where
  bcast_S_S8x256x256x2 : S_.BroadcastsInDim S8x256x256x2 (![] : Fin 0 → Fin S8x256x256x2.rank)
  reducesTo_S8x256x256x2_S_d0_1_2_3 : S8x256x256x2.ReducesTo [0, 1, 2, 3] S_
  h_S_ : 0 < S_.numel
  bcast_S_S169x64 : S_.BroadcastsInDim S169x64 (![] : Fin 0 → Fin S169x64.rank)
  reducesTo_S169x64_S_d0_1 : S169x64.ReducesTo [0, 1] S_
  bcast_S_S50000x64 : S_.BroadcastsInDim S50000x64 (![] : Fin 0 → Fin S50000x64.rank)
  reducesTo_S50000x64_S_d0_1 : S50000x64.ReducesTo [0, 1] S_
  bcast_S_S10000x64 : S_.BroadcastsInDim S10000x64 (![] : Fin 0 → Fin S10000x64.rank)
  reducesTo_S10000x64_S_d0_1 : S10000x64.ReducesTo [0, 1] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg9 : FVec F S2x64 .f32) (main_v33 : IVec S_ 1) : IVec S_ 1 :=
  let main_v34 : FVec F S2x64 .f32 := Host.absf main_arg9
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  main_v38

def fn_part1 {F : FTy → Type} [FloatOps F] (main_arg6 : FVec F S2x64 .f32) (main_arg7 : FVec F S2x64 .f32) (main_arg8 : FVec F S2x64 .f32) (main_arg9 : FVec F S2x64 .f32) (main_v13 : IVec S_ 1) (main_v16 : IVec S10000x64 1) : IVec S_ 1 :=
  let main_c_5 : IVec S_ 1 := constantI S_ 1 1#1
  let main_v17 : IVec S_ 1 := (fun x v => Host.reduce IntOp.andi x v reducesTo_S10000x64_S_d0_1 h_S_) main_v16 main_c_5
  let main_v18 : IVec S_ 1 := andi main_v13 main_v17
  let main_v19 : FVec F S2x64 .f32 := Host.absf main_arg6
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg9 main_v33

def fn {F : FTy → Type} [FloatOps F] (main_arg0 : IVec S8x256x3 32) (main_arg1 : FVec F S8x256x256x2 .f32) (main_arg2 : IVec S8 32) (main_arg3 : FVec F S169x64 .f32) (main_arg4 : FVec F S50000x64 .f32) (main_arg5 : FVec F S10000x64 .f32) (main_arg6 : FVec F S2x64 .f32) (main_arg7 : FVec F S2x64 .f32) (main_arg8 : FVec F S2x64 .f32) (main_arg9 : FVec F S2x64 .f32) : IVec S_ 1 :=
  let main_v0 : FVec F S8x256x256x2 .f32 := Host.absf main_arg1
  let main_cst : FVec F S_ .f32 := constant S_ .f32 0x7F800000#32
  let main_v1 : FVec F S8x256x256x2 .f32 := broadcastInDim S8x256x256x2 ![] bcast_S_S8x256x256x2 main_cst
  let main_v2 : IVec S8x256x256x2 1 := cmpf .olt main_v0 main_v1
  let main_c : IVec S_ 1 := constantI S_ 1 1#1
  let main_v3 : IVec S_ 1 := (fun x v => Host.reduce IntOp.andi x v reducesTo_S8x256x256x2_S_d0_1_2_3 h_S_) main_v2 main_c
  let main_v4 : FVec F S169x64 .f32 := Host.absf main_arg3
  let main_cst_0 : FVec F S_ .f32 := constant S_ .f32 0x7F800000#32
  let main_v5 : FVec F S169x64 .f32 := broadcastInDim S169x64 ![] bcast_S_S169x64 main_cst_0
  let main_v6 : IVec S169x64 1 := cmpf .olt main_v4 main_v5
  let main_c_1 : IVec S_ 1 := constantI S_ 1 1#1
  let main_v7 : IVec S_ 1 := (fun x v => Host.reduce IntOp.andi x v reducesTo_S169x64_S_d0_1 h_S_) main_v6 main_c_1
  let main_v8 : IVec S_ 1 := andi main_v3 main_v7
  let main_v9 : FVec F S50000x64 .f32 := Host.absf main_arg4
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S10000x64 .f32 := Host.absf main_arg5
  let main_cst_4 : FVec F S_ .f32 := constant S_ .f32 0x7F800000#32
  let main_v15 : FVec F S10000x64 .f32 := broadcastInDim S10000x64 ![] bcast_S_S10000x64 main_cst_4
  let main_v16 : IVec S10000x64 1 := cmpf .olt main_v14 main_v15
  fn_part1 (F := F) main_arg6 main_arg7 main_arg8 main_arg9 main_v13 main_v16
-- ==== Kernel.lean ====
abbrev S8x256x3 : Shape := ⟨3, ![8, 256, 3]⟩
abbrev S8x256x256x2 : Shape := ⟨4, ![8, 256, 256, 2]⟩
abbrev S8 : Shape := ⟨1, ![8]⟩
abbrev S169x64 : Shape := ⟨2, ![169, 64]⟩
abbrev S50000x64 : Shape := ⟨2, ![50000, 64]⟩
abbrev S10000x64 : Shape := ⟨2, ![10000, 64]⟩
abbrev S2x64 : Shape := ⟨2, ![2, 64]⟩
abbrev S8x256x1 : Shape := ⟨3, ![8, 256, 1]⟩
abbrev S8x256 : Shape := ⟨2, ![8, 256]⟩
abbrev S_ : Shape := ⟨0, ![]⟩
abbrev S8x256x64 : Shape := ⟨3, ![8, 256, 64]⟩
abbrev S256 : Shape := ⟨1, ![256]⟩
abbrev S1x256 : Shape := ⟨2, ![1, 256]⟩
abbrev S8x1 : Shape := ⟨2, ![8, 1]⟩
abbrev S8x1x256 : Shape := ⟨3, ![8, 1, 256]⟩
abbrev S8x256x256x64 : Shape := ⟨4, ![8, 256, 256, 64]⟩
abbrev S1x64x256x2 : Shape := ⟨4, ![1, 64, 256, 2]⟩
abbrev S1x64x1 : Shape := ⟨3, ![1, 64, 1]⟩
abbrev S1x1x256 : Shape := ⟨3, ![1, 1, 256]⟩
abbrev S1x64x256x64 : Shape := ⟨4, ![1, 64, 256, 64]⟩
abbrev S1x64x256x1 : Shape := ⟨4, ![1, 64, 256, 1]⟩
abbrev S64x256 : Shape := ⟨2, ![64, 256]⟩
abbrev S64x1 : Shape := ⟨2, ![64, 1]⟩
abbrev S64x256x1 : Shape := ⟨3, ![64, 256, 1]⟩
abbrev S1x64 : Shape := ⟨2, ![1, 64]⟩
abbrev S64 : Shape := ⟨1, ![64]⟩
abbrev S1x1x64 : Shape := ⟨3, ![1, 1, 64]⟩
abbrev S64x256x64 : Shape := ⟨3, ![64, 256, 64]⟩

abbrev nBuf : Space → Nat
  | .hbm => 83
  | .vmem => 12
  | .smem => 0
  | _ => 0

abbrev bufTy : (tb : Table) → Fin (tcTables nBuf tb) → BufTy
  | .hbm, ⟨0, _⟩ => ⟨S8x256x3, .i32⟩
  | .hbm, ⟨1, _⟩ => ⟨S8x256x256x2, .f32⟩
  | .hbm, ⟨2, _⟩ => ⟨S8, .i32⟩
  | .hbm, ⟨3, _⟩ => ⟨S169x64, .f32⟩
  | .hbm, ⟨4, _⟩ => ⟨S50000x64, .f32⟩
  | .hbm, ⟨5, _⟩ => ⟨S10000x64, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S8x256x1, .i32⟩
  | .hbm, ⟨11, _⟩ => ⟨S8x256, .i32⟩
  | .hbm, ⟨12, _⟩ => ⟨S_, .i32⟩
  | .hbm, ⟨13, _⟩ => ⟨S8x256, .i32⟩
  | .hbm, ⟨14, _⟩ => ⟨S8x256, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S8x256, .i32⟩
  | .hbm, ⟨22, _⟩ => ⟨S8x256, .i32⟩
  | .hbm, ⟨23, _⟩ => ⟨S_, .i32⟩
  | .hbm, ⟨24, _⟩ => ⟨S8x256, .i32⟩
  | .hbm, ⟨25, _⟩ => ⟨S8x256, .i1⟩
  | .hbm, ⟨26, _⟩ => ⟨S_, .i32⟩
  | .hbm, ⟨27, _⟩ => ⟨S8x256, .i32⟩
  | .hbm, ⟨28, _⟩ => ⟨S8x256, .i1⟩
  | .hbm, ⟨29, _⟩ => ⟨S_, .i32⟩
  | .hbm, ⟨30, _⟩ => ⟨S_, .i1⟩
  | .hbm, ⟨31, _⟩ => ⟨S8x256, .i1⟩
  | .hbm, ⟨32, _⟩ => ⟨S8x256, .i1⟩
  | .hbm, ⟨33, _⟩ => ⟨S8x256, .i1⟩
  | .hbm, ⟨34, _⟩ => ⟨S8x256, .i32⟩
  | .hbm, ⟨35, _⟩ => ⟨S8x256, .i32⟩
  | .hbm, ⟨36, _⟩ => ⟨S8x256, .i32⟩
  | .hbm, ⟨37, _⟩ => ⟨S_, .i32⟩
  | .hbm, ⟨38, _⟩ => ⟨S8x256, .i32⟩
  | .hbm, ⟨39, _⟩ => ⟨S8x256, .i32⟩
  | .hbm, ⟨40, _⟩ => ⟨S_, .i32⟩
  | .hbm, ⟨41, _⟩ => ⟨S8x256, .i32⟩
  | .hbm, ⟨42, _⟩ => ⟨S8x256, .i1⟩
  | .hbm, ⟨43, _⟩ => ⟨S_, .i32⟩
  | .hbm, ⟨44, _⟩ => ⟨S8x256, .i32⟩
  | .hbm, ⟨45, _⟩ => ⟨S8x256, .i32⟩
  | .hbm, ⟨46, _⟩ => ⟨S8x256, .i32⟩
  | .hbm, ⟨47, _⟩ => ⟨S8x256x1, .i32⟩
  | .hbm, ⟨48, _⟩ => ⟨S8x256x64, .f32⟩
  | .hbm, ⟨49, _⟩ => ⟨S8x256x1, .i32⟩
  | .hbm, ⟨50, _⟩ => ⟨S8x256, .i32⟩
  | .hbm, ⟨51, _⟩ => ⟨S_, .i32⟩
  | .hbm, ⟨52, _⟩ => ⟨S8x256, .i32⟩
  | .hbm, ⟨53, _⟩ => ⟨S8x256, .i1⟩
  | .hbm, ⟨54, _⟩ => ⟨S_, .i32⟩
  | .hbm, ⟨55, _⟩ => ⟨S8x256, .i32⟩
  | .hbm, ⟨56, _⟩ => ⟨S8x256, .i32⟩
  | .hbm, ⟨57, _⟩ => ⟨S8x256, .i32⟩
  | .hbm, ⟨58, _⟩ => ⟨S8x256x1, .i32⟩
  | .hbm, ⟨59, _⟩ => ⟨S8x256x64, .f32⟩
  | .hbm, ⟨60, _⟩ => ⟨S8x256x64, .f32⟩
  | .hbm, ⟨61, _⟩ => ⟨S8x256x1, .i32⟩
  | .hbm, ⟨62, _⟩ => ⟨S8x256, .i32⟩
  | .hbm, ⟨63, _⟩ => ⟨S_, .i32⟩
  | .hbm, ⟨64, _⟩ => ⟨S8x256, .i32⟩
  | .hbm, ⟨65, _⟩ => ⟨S8x256, .i1⟩
  | .hbm, ⟨66, _⟩ => ⟨S_, .i32⟩
  | .hbm, ⟨67, _⟩ => ⟨S8x256, .i32⟩
  | .hbm, ⟨68, _⟩ => ⟨S8x256, .i32⟩
  | .hbm, ⟨69, _⟩ => ⟨S8x256, .i32⟩
  | .hbm, ⟨70, _⟩ => ⟨S8x256x1, .i32⟩
  | .hbm, ⟨71, _⟩ => ⟨S8x256x64, .f32⟩
  | .hbm, ⟨72, _⟩ => ⟨S8x256x64, .f32⟩
  | .hbm, ⟨73, _⟩ => ⟨S256, .i32⟩
  | .hbm, ⟨74, _⟩ => ⟨S1x256, .i32⟩
  | .hbm, ⟨75, _⟩ => ⟨S8x1, .i32⟩
  | .hbm, ⟨76, _⟩ => ⟨S8x256, .i32⟩
  | .hbm, ⟨77, _⟩ => ⟨S8x256, .i32⟩
  | .hbm, ⟨78, _⟩ => ⟨S8x256, .i1⟩
  | .hbm, ⟨79, _⟩ => ⟨S8x256, .i32⟩
  | .hbm, ⟨80, _⟩ => ⟨S8x256x1, .i32⟩
  | .hbm, ⟨81, _⟩ => ⟨S8x1x256, .i32⟩
  | .hbm, ⟨82, _⟩ => ⟨S8x256x256x64, .f32⟩
  | .local _ .vmem, ⟨0, _⟩ => ⟨S1x64x256x2, .f32⟩
  | .local _ .vmem, ⟨1, _⟩ => ⟨S1x64x256x2, .f32⟩
  | .local _ .vmem, ⟨2, _⟩ => ⟨S1x64x1, .i32⟩
  | .local _ .vmem, ⟨3, _⟩ => ⟨S1x64x1, .i32⟩
  | .local _ .vmem, ⟨4, _⟩ => ⟨S1x1x256, .i32⟩
  | .local _ .vmem, ⟨5, _⟩ => ⟨S1x1x256, .i32⟩
  | .local _ .vmem, ⟨6, _⟩ => ⟨S2x64, .f32⟩
  | .local _ .vmem, ⟨7, _⟩ => ⟨S2x64, .f32⟩
  | .local _ .vmem, ⟨8, _⟩ => ⟨S2x64, .f32⟩
  | .local _ .vmem, ⟨9, _⟩ => ⟨S2x64, .f32⟩
  | .local _ .vmem, ⟨10, _⟩ => ⟨S1x64x256x64, .f32⟩
  | .local _ .vmem, ⟨11, _⟩ => ⟨S1x64x256x64, .f32⟩
  | _, _ => ⟨S8x256x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v4 : Ref sig .tc := ⟨.hbm, 36, rfl⟩
abbrev main_c_1 : Ref sig .tc := ⟨.hbm, 37, rfl⟩
abbrev main_v5 : Ref sig .tc := ⟨.hbm, 38, rfl⟩
abbrev main_v6 : Ref sig .tc := ⟨.hbm, 39, rfl⟩
abbrev main_c_2 : Ref sig .tc := ⟨.hbm, 40, rfl⟩
abbrev main_v7 : Ref sig .tc := ⟨.hbm, 41, rfl⟩
abbrev main_v8 : Ref sig .tc := ⟨.hbm, 42, rfl⟩
abbrev main_c_3 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_c_4 : Ref sig .tc := ⟨.hbm, 51, rfl⟩
abbrev main_v16 : Ref sig .tc := ⟨.hbm, 52, rfl⟩
abbrev main_v17 : Ref sig .tc := ⟨.hbm, 53, rfl⟩
abbrev main_c_5 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_6 : Ref sig .tc := ⟨.hbm, 63, rfl⟩
abbrev main_v26 : Ref sig .tc := ⟨.hbm, 64, rfl⟩
abbrev main_v27 : Ref sig .tc := ⟨.hbm, 65, rfl⟩
abbrev main_c_7 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S8x256x3_S8x256x1_0_0_2 : S8x256x3.Slices ![0, 0, 2] S8x256x1
  shapeCasts_S8x256x1_S8x256 : S8x256x1.ShapeCasts S8x256
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  slices_S8x256x3_S8x256x1_0_0_1 : S8x256x3.Slices ![0, 0, 1] S8x256x1
  slices_S8x256x3_S8x256x1_0_0_0 : S8x256x3.Slices ![0, 0, 0] S8x256x1
  bcast_S256_S1x256_1 : S256.BroadcastsInDim S1x256 (![1] : Fin 1 → Fin S1x256.rank)
  bcast_S8_S8x1_0 : S8.BroadcastsInDim S8x1 (![0] : Fin 1 → Fin S8x1.rank)
  bcast_S1x256_S8x256_0_1 : S1x256.BroadcastsInDim S8x256 (![0, 1] : Fin 2 → Fin S8x256.rank)
  bcast_S8x1_S8x256_0_1 : S8x1.BroadcastsInDim S8x256 (![0, 1] : Fin 2 → Fin S8x256.rank)
  natLt_1_32 : 1 < 32
  bcast_S8x256_S8x1x256_0_2 : S8x256.BroadcastsInDim S8x1x256 (![0, 2] : Fin 2 → Fin S8x1x256.rank)
  inb_S1x64x256x2_S1x64x256x1_0_0_0_0 : ∀ a, (![0, 0, 0, 0] : Fin 4 → Nat) a + S1x64x256x1.size a ≤ S1x64x256x2.size a
  h_S1x64x256x1 : 0 < S1x64x256x1.numel
  shapeCasts_S1x64x256x1_S64x256 : S1x64x256x1.ShapeCasts S64x256
  inb_S1x64x256x2_S1x64x256x1_0_0_0_1 : ∀ a, (![0, 0, 0, 1] : Fin 4 → Nat) a + S1x64x256x1.size a ≤ S1x64x256x2.size a
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S64x1_S64x256 : S64x1.Broadcasts S64x256
  broadcasts_S1x256_S64x256 : S1x256.Broadcasts S64x256
  shapeCasts_S64x256_S64x256x1 : S64x256.ShapeCasts S64x256x1
  inb_S2x64_S1x64_0_0 : ∀ a, (![0, 0] : Fin 2 → Nat) a + S1x64.size a ≤ S2x64.size a
  h_S1x64 : 0 < S1x64.numel
  shapeCasts_S1x64_S64 : S1x64.ShapeCasts S64
  inb_S2x64_S1x64_1_0 : ∀ a, (![1, 0] : Fin 2 → Nat) a + S1x64.size a ≤ S2x64.size a
  shapeCasts_S64_S1x1x64 : S64.ShapeCasts S1x1x64
  broadcasts_S64x256x1_S64x256x64 : S64x256x1.Broadcasts S64x256x64
  broadcasts_S1x1x64_S64x256x64 : S1x1x64.Broadcasts S64x256x64
  inb_S1x64x256x64_S1x64x256x64_0_0_0_0 : ∀ a, (![0, 0, 0, 0] : Fin 4 → Nat) a + S1x64x256x64.size a ≤ S1x64x256x64.size a
  h_S1x64x256x64 : 0 < S1x64x256x64.numel
  shapeCasts_S1x64x256x64_S64x256x64 : S1x64x256x64.ShapeCasts S64x256x64
  shapeCasts_S64x256x64_S1x64x256x64 : S64x256x64.ShapeCasts S1x64x256x64
  gather_S169x64_S8x256x1_S8x256x64_2_0_n_n_0_2_164_wf : GatherDims.WF S169x64 S8x256x1 S8x256x64 [2] [0] [] [0] [] 2 ![1, 64]
  gather_S50000x64_S8x256x1_S8x256x64_2_0_n_n_0_2_164_wf : GatherDims.WF S50000x64 S8x256x1 S8x256x64 [2] [0] [] [0] [] 2 ![1, 64]
  gather_S10000x64_S8x256x1_S8x256x64_2_0_n_n_0_2_164_wf : GatherDims.WF S10000x64 S8x256x1 S8x256x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x2.size a ≤ S8x256x256x2.size a
  hwx0_0 : ∀ i : grid0.Coords, EltTy.bits .f32 = 32 ∨ (Rect.block (s := S8x256x256x2) S1x64x256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S8x256x1.size a
  hwx0_1 : ∀ i : grid0.Coords, EltTy.bits .i32 = 32 ∨ (Rect.block (s := S8x256x1) S1x64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x256.size a
  hwx0_2 : ∀ i : grid0.Coords, EltTy.bits .i32 = 32 ∨ (Rect.block (s := S8x1x256) S1x1x256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64.size a ≤ S2x64.size a
  hwx0_3 : ∀ i : grid0.Coords, EltTy.bits .f32 = 32 ∨ (Rect.block (s := S2x64) S2x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64.size a ≤ S2x64.size a
  hwx0_4 : ∀ i : grid0.Coords, EltTy.bits .f32 = 32 ∨ (Rect.block (s := S2x64) S2x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x64.size a ≤ S2x64.size a
  hwx0_6 : ∀ i : grid0.Coords, EltTy.bits .f32 = 32 ∨ (Rect.block (s := S2x64) S2x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x256x64.size a ≤ S8x256x256x64.size a
  hwx0_7 : ∀ i : grid0.Coords, EltTy.bits .f32 = 32 ∨ (Rect.block (s := S8x256x256x64) S1x64x256x64.size (cc0_transform_7 i) (hinb0_7 i)).WholeWords (EltTy.packing .f32)

variable [Facts₀]

def gather_S169x64_S8x256x1_S8x256x64_2_0_n_n_0_2_164 : GatherDims S169x64 S8x256x1 S8x256x64 where
  offsetDims := [2]
  collapsedSliceDims := [0]
  operandBatchingDims := []
  startIndicesBatchingDims := []
  startIndexMap := [0]
  indexVectorDim := 2
  sliceSizes := ![1, 64]
  wf := gather_S169x64_S8x256x1_S8x256x64_2_0_n_n_0_2_164_wf
def gather_S50000x64_S8x256x1_S8x256x64_2_0_n_n_0_2_164 : GatherDims S50000x64 S8x256x1 S8x256x64 where
  offsetDims := [2]
  collapsedSliceDims := [0]
  operandBatchingDims := []
  startIndicesBatchingDims := []
  startIndexMap := [0]
  indexVectorDim := 2
  sliceSizes := ![1, 64]
  wf := gather_S50000x64_S8x256x1_S8x256x64_2_0_n_n_0_2_164_wf
def gather_S10000x64_S8x256x1_S8x256x64_2_0_n_n_0_2_164 : GatherDims S10000x64 S8x256x1 S8x256x64 where
  offsetDims := [2]
  collapsedSliceDims := [0]
  operandBatchingDims := []
  startIndicesBatchingDims := []
  startIndexMap := [0]
  indexVectorDim := 2
  sliceSizes := ![1, 64]
  wf := gather_S10000x64_S8x256x1_S8x256x64_2_0_n_n_0_2_164_wf

abbrev win0_0 : Pipeline.Window sig grid0 :=
  Pipeline.Window.ofSpec (Memref.whole main_arg1) S1x64x256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1x64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S2x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S2x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S2x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S1x64x256x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x3 : Shape := ⟨3, ![8, 256, 3]⟩
abbrev S8x256x256x2 : Shape := ⟨4, ![8, 256, 256, 2]⟩
abbrev S8 : Shape := ⟨1, ![8]⟩
abbrev S169x64 : Shape := ⟨2, ![169, 64]⟩
abbrev S50000x64 : Shape := ⟨2, ![50000, 64]⟩
abbrev S10000x64 : Shape := ⟨2, ![10000, 64]⟩
abbrev S2x64 : Shape := ⟨2, ![2, 64]⟩
abbrev S8x256x1 : Shape := ⟨3, ![8, 256, 1]⟩
abbrev S8x256 : Shape := ⟨2, ![8, 256]⟩
abbrev S_ : Shape := ⟨0, ![]⟩
abbrev S8x256x64 : Shape := ⟨3, ![8, 256, 64]⟩
abbrev S8x256x256x1 : Shape := ⟨4, ![8, 256, 256, 1]⟩
abbrev S8x256x256 : Shape := ⟨3, ![8, 256, 256]⟩
abbrev S256 : Shape := ⟨1, ![256]⟩
abbrev S1x256 : Shape := ⟨2, ![1, 256]⟩
abbrev S8x1 : Shape := ⟨2, ![8, 1]⟩
abbrev S8x1x256 : Shape := ⟨3, ![8, 1, 256]⟩
abbrev S8x256x256x64 : Shape := ⟨4, ![8, 256, 256, 64]⟩

abbrev nBuf : Space → Nat
  | .hbm => 158
  | .vmem => 0
  | .smem => 0
  | _ => 0

abbrev hbmTy0_0 (i : Nat) : BufTy := match i % 128 with
  | 0 => ⟨S8x256x3, .i32⟩
  | 1 => ⟨S8x256x256x2, .f32⟩
  | 2 => ⟨S8, .i32⟩
  | 3 => ⟨S169x64, .f32⟩
  | 4 => ⟨S50000x64, .f32⟩
  | 5 => ⟨S10000x64, .f32⟩
  | 6 => ⟨S2x64, .f32⟩
  | 7 => ⟨S2x64, .f32⟩
  | 8 => ⟨S2x64, .f32⟩
  | 9 => ⟨S2x64, .f32⟩
  | 10 => ⟨S8x256x1, .i32⟩
  | 11 => ⟨S8x256, .i32⟩
  | 12 => ⟨S_, .i32⟩
  | 13 => ⟨S8x256, .i32⟩
  | 14 => ⟨S8x256, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S8x256, .i32⟩
  | 22 => ⟨S8x256, .i32⟩
  | 23 => ⟨S_, .i32⟩
  | 24 => ⟨S8x256, .i32⟩
  | 25 => ⟨S8x256, .i1⟩
  | 26 => ⟨S_, .i32⟩
  | 27 => ⟨S8x256, .i32⟩
  | 28 => ⟨S8x256, .i1⟩
  | 29 => ⟨S_, .i32⟩
  | 30 => ⟨S_, .i1⟩
  | 31 => ⟨S8x256, .i1⟩
  | 32 => ⟨S8x256, .i1⟩
  | 33 => ⟨S8x256, .i1⟩
  | 34 => ⟨S8x256, .i32⟩
  | 35 => ⟨S8x256, .i32⟩
  | 36 => ⟨S8x256, .i32⟩
  | 37 => ⟨S_, .i32⟩
  | 38 => ⟨S8x256, .i32⟩
  | 39 => ⟨S8x256, .i32⟩
  | 40 => ⟨S_, .i32⟩
  | 41 => ⟨S8x256, .i32⟩
  | 42 => ⟨S8x256, .i1⟩
  | 43 => ⟨S_, .i32⟩
  | 44 => ⟨S8x256, .i32⟩
  | 45 => ⟨S8x256, .i32⟩
  | 46 => ⟨S8x256, .i32⟩
  | 47 => ⟨S8x256x1, .i32⟩
  | 48 => ⟨S8x256x64, .f32⟩
  | 49 => ⟨S8x256x1, .i32⟩
  | 50 => ⟨S8x256, .i32⟩
  | 51 => ⟨S_, .i32⟩
  | 52 => ⟨S8x256, .i32⟩
  | 53 => ⟨S8x256, .i1⟩
  | 54 => ⟨S_, .i32⟩
  | 55 => ⟨S8x256, .i32⟩
  | 56 => ⟨S8x256, .i32⟩
  | 57 => ⟨S8x256, .i32⟩
  | 58 => ⟨S8x256x1, .i32⟩
  | 59 => ⟨S8x256x64, .f32⟩
  | 60 => ⟨S8x256x64, .f32⟩
  | 61 => ⟨S8x256x1, .i32⟩
  | 62 => ⟨S8x256, .i32⟩
  | 63 => ⟨S_, .i32⟩
  | 64 => ⟨S8x256, .i32⟩
  | 65 => ⟨S8x256, .i1⟩
  | 66 => ⟨S_, .i32⟩
  | 67 => ⟨S8x256, .i32⟩
  | 68 => ⟨S8x256, .i32⟩
  | 69 => ⟨S8x256, .i32⟩
  | 70 => ⟨S8x256x1, .i32⟩
  | 71 => ⟨S8x256x64, .f32⟩
  | 72 => ⟨S8x256x64, .f32⟩
  | 73 => ⟨S8x256x256x1, .f32⟩
  | 74 => ⟨S8x256x256, .f32⟩
  | 75 => ⟨S8x256x256x1, .f32⟩
  | 76 => ⟨S8x256x256, .f32⟩
  | 77 => ⟨S256, .i32⟩
  | 78 => ⟨S1x256, .i32⟩
  | 79 => ⟨S8x1, .i32⟩
  | 80 => ⟨S8x256, .i32⟩
  | 81 => ⟨S8x256, .i32⟩
  | 82 => ⟨S8x256, .i1⟩
  | 83 => ⟨S8x256x1, .i1⟩
  | 84 => ⟨S8x1x256, .i1⟩
  | 85 => ⟨S8x256x256, .i1⟩
  | 86 => ⟨S8x256x256, .i1⟩
  | 87 => ⟨S8x256x256, .i1⟩
  | 88 => ⟨S8x256x256, .i32⟩
  | 89 => ⟨S_, .i32⟩
  | 90 => ⟨S8x256x256, .i32⟩
  | 91 => ⟨S8x256x256, .i1⟩
  | 92 => ⟨S_, .i32⟩
  | 93 => ⟨S8x256x256, .i32⟩
  | 94 => ⟨S8x256x256, .i32⟩
  | 95 => ⟨S8x256x256, .i32⟩
  | 96 => ⟨S8x256x256x1, .i32⟩
  | 97 => ⟨S8x256x256x64, .f32⟩
  | 98 => ⟨S_, .i32⟩
  | 99 => ⟨S8x256x256, .i32⟩
  | 100 => ⟨S8x256x256, .i1⟩
  | 101 => ⟨S_, .i32⟩
  | 102 => ⟨S8x256x256, .i32⟩
  | 103 => ⟨S8x256x256, .i32⟩
  | 104 => ⟨S8x256x256, .i32⟩
  | 105 => ⟨S8x256x256x1, .i32⟩
  | 106 => ⟨S8x256x256x64, .f32⟩
  | 107 => ⟨S_, .i32⟩
  | 108 => ⟨S8x256x256, .i32⟩
  | 109 => ⟨S8x256x256, .i1⟩
  | 110 => ⟨S_, .i32⟩
  | 111 => ⟨S8x256x256, .i32⟩
  | 112 => ⟨S8x256x256, .i32⟩
  | 113 => ⟨S8x256x256, .i32⟩
  | 114 => ⟨S8x256x256x1, .i32⟩
  | 115 => ⟨S8x256x256x64, .f32⟩
  | 116 => ⟨S_, .i32⟩
  | 117 => ⟨S8x256x256, .i32⟩
  | 118 => ⟨S8x256x256, .i1⟩
  | 119 => ⟨S_, .i32⟩
  | 120 => ⟨S8x256x256, .i32⟩
  | 121 => ⟨S8x256x256, .i32⟩
  | 122 => ⟨S8x256x256, .i32⟩
  | 123 => ⟨S8x256x256x1, .i32⟩
  | 124 => ⟨S8x256x256x64, .f32⟩
  | 125 => ⟨S_, .f32⟩
  | 126 => ⟨S8x256x256, .f32⟩
  | 127 => ⟨S8x256x256, .f32⟩
  | _ => ⟨S8x256x3, .i32⟩

abbrev hbmTy0_1 (i : Nat) : BufTy := match i % 128 with
  | 0 => ⟨S8x256x256x1, .f32⟩
  | 1 => ⟨S_, .f32⟩
  | 2 => ⟨S8x256x256, .f32⟩
  | 3 => ⟨S8x256x256, .f32⟩
  | 4 => ⟨S8x256x256x1, .f32⟩
  | 5 => ⟨S_, .f32⟩
  | 6 => ⟨S8x256x256, .f32⟩
  | 7 => ⟨S8x256x256, .f32⟩
  | 8 => ⟨S8x256x256x1, .f32⟩
  | 9 => ⟨S_, .f32⟩
  | 10 => ⟨S8x256x256, .f32⟩
  | 11 => ⟨S8x256x256, .f32⟩
  | 12 => ⟨S8x256x256x1, .f32⟩
  | 13 => ⟨S8x256x256x64, .f32⟩
  | 14 => ⟨S8x256x256x64, .f32⟩
  | 15 => ⟨S8x256x256x64, .f32⟩
  | 16 => ⟨S8x256x256x64, .f32⟩
  | 17 => ⟨S8x256x256x64, .f32⟩
  | 18 => ⟨S_, .f32⟩
  | 19 => ⟨S8x256x256x64, .f32⟩
  | 20 => ⟨S8x256x256x64, .f32⟩
  | 21 => ⟨S8x256x256x64, .f32⟩
  | 22 => ⟨S8x256x256x64, .f32⟩
  | 23 => ⟨S8x256x256x64, .f32⟩
  | 24 => ⟨S8x256x256x64, .f32⟩
  | 25 => ⟨S8x256x256x64, .f32⟩
  | 26 => ⟨S_, .f32⟩
  | 27 => ⟨S8x256x256x64, .f32⟩
  | 28 => ⟨S8x256x256x64, .f32⟩
  | 29 => ⟨S8x256x256x64, .f32⟩
  | _ => ⟨S8x256x3, .i32⟩

abbrev hbmTy (i : Nat) : BufTy := match i / 128 with
  | 0 => hbmTy0_0 i
  | 1 => hbmTy0_1 i
  | _ => ⟨S8x256x3, .i32⟩

abbrev bufTy : (tb : Table) → Fin (tcTables nBuf tb) → BufTy
  | .hbm, ⟨i, _⟩ => hbmTy i
  | _, _ => ⟨S8x256x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v4 : Ref sig .tc := ⟨.hbm, 36, rfl⟩
abbrev main_c_1 : Ref sig .tc := ⟨.hbm, 37, rfl⟩
abbrev main_v5 : Ref sig .tc := ⟨.hbm, 38, rfl⟩
abbrev main_v6 : Ref sig .tc := ⟨.hbm, 39, rfl⟩
abbrev main_c_2 : Ref sig .tc := ⟨.hbm, 40, rfl⟩
abbrev main_v7 : Ref sig .tc := ⟨.hbm, 41, rfl⟩
abbrev main_v8 : Ref sig .tc := ⟨.hbm, 42, rfl⟩
abbrev main_c_3 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_c_4 : Ref sig .tc := ⟨.hbm, 51, rfl⟩
abbrev main_v16 : Ref sig .tc := ⟨.hbm, 52, rfl⟩
abbrev main_v17 : Ref sig .tc := ⟨.hbm, 53, rfl⟩
abbrev main_c_5 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_6 : Ref sig .tc := ⟨.hbm, 63, rfl⟩
abbrev main_v26 : Ref sig .tc := ⟨.hbm, 64, rfl⟩
abbrev main_v27 : Ref sig .tc := ⟨.hbm, 65, rfl⟩
abbrev main_c_7 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_8 : Ref sig .tc := ⟨.hbm, 89, rfl⟩
abbrev main_v50 : Ref sig .tc := ⟨.hbm, 90, rfl⟩
abbrev main_v51 : Ref sig .tc := ⟨.hbm, 91, rfl⟩
abbrev main_c_9 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_c_10 : Ref sig .tc := ⟨.hbm, 98, rfl⟩
abbrev main_v57 : Ref sig .tc := ⟨.hbm, 99, rfl⟩
abbrev main_v58 : Ref sig .tc := ⟨.hbm, 100, rfl⟩
abbrev main_c_11 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_c_12 : Ref sig .tc := ⟨.hbm, 107, rfl⟩
abbrev main_v64 : Ref sig .tc := ⟨.hbm, 108, rfl⟩
abbrev main_v65 : Ref sig .tc := ⟨.hbm, 109, rfl⟩
abbrev main_c_13 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_c_14 : Ref sig .tc := ⟨.hbm, 116, rfl⟩
abbrev main_v71 : Ref sig .tc := ⟨.hbm, 117, rfl⟩
abbrev main_v72 : Ref sig .tc := ⟨.hbm, 118, rfl⟩
abbrev main_c_15 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_16 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_17 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_18 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_19 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_20 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩

abbrev nD : Nat := 1
abbrev τ : Topo := Topo.v7x

variable {F : FTy → Type} [FloatOps F]

class Facts₀ : Prop where
  slices_S8x256x3_S8x256x1_0_0_2 : S8x256x3.Slices ![0, 0, 2] S8x256x1
  shapeCasts_S8x256x1_S8x256 : S8x256x1.ShapeCasts S8x256
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  slices_S8x256x3_S8x256x1_0_0_1 : S8x256x3.Slices ![0, 0, 1] S8x256x1
  slices_S8x256x3_S8x256x1_0_0_0 : S8x256x3.Slices ![0, 0, 0] S8x256x1
  slices_S8x256x256x2_S8x256x256x1_0_0_0_0 : S8x256x256x2.Slices ![0, 0, 0, 0] S8x256x256x1
  shapeCasts_S8x256x256x1_S8x256x256 : S8x256x256x1.ShapeCasts S8x256x256
  slices_S8x256x256x2_S8x256x256x1_0_0_0_1 : S8x256x256x2.Slices ![0, 0, 0, 1] S8x256x256x1
  bcast_S256_S1x256_1 : S256.BroadcastsInDim S1x256 (![1] : Fin 1 → Fin S1x256.rank)
  bcast_S8_S8x1_0 : S8.BroadcastsInDim S8x1 (![0] : Fin 1 → Fin S8x1.rank)
  bcast_S1x256_S8x256_0_1 : S1x256.BroadcastsInDim S8x256 (![0, 1] : Fin 2 → Fin S8x256.rank)
  bcast_S8x1_S8x256_0_1 : S8x1.BroadcastsInDim S8x256 (![0, 1] : Fin 2 → Fin S8x256.rank)
  bcast_S8x256_S8x1x256_0_2 : S8x256.BroadcastsInDim S8x1x256 (![0, 2] : Fin 2 → Fin S8x1x256.rank)
  bcast_S8x256x1_S8x256x256_0_1_2 : S8x256x1.BroadcastsInDim S8x256x256 (![0, 1, 2] : Fin 3 → Fin S8x256x256.rank)
  bcast_S8x1x256_S8x256x256_0_1_2 : S8x1x256.BroadcastsInDim S8x256x256 (![0, 1, 2] : Fin 3 → Fin S8x256x256.rank)
  natLt_1_32 : 1 < 32
  bcast_S_S8x256x256 : S_.BroadcastsInDim S8x256x256 (![] : Fin 0 → Fin S8x256x256.rank)
  bcast_S8x256x256_S8x256x256x1_0_1_2 : S8x256x256.BroadcastsInDim S8x256x256x1 (![0, 1, 2] : Fin 3 → Fin S8x256x256x1.rank)
  bcast_S8x256x256x1_S8x256x256x64_0_1_2_3 : S8x256x256x1.BroadcastsInDim S8x256x256x64 (![0, 1, 2, 3] : Fin 4 → Fin S8x256x256x64.rank)
  bcast_S_S8x256x256x64 : S_.BroadcastsInDim S8x256x256x64 (![] : Fin 0 → Fin S8x256x256x64.rank)
  gather_S169x64_S8x256x1_S8x256x64_2_0_n_n_0_2_164_wf : GatherDims.WF S169x64 S8x256x1 S8x256x64 [2] [0] [] [0] [] 2 ![1, 64]
  gather_S50000x64_S8x256x1_S8x256x64_2_0_n_n_0_2_164_wf : GatherDims.WF S50000x64 S8x256x1 S8x256x64 [2] [0] [] [0] [] 2 ![1, 64]
  gather_S10000x64_S8x256x1_S8x256x64_2_0_n_n_0_2_164_wf : GatherDims.WF S10000x64 S8x256x1 S8x256x64 [2] [0] [] [0] [] 2 ![1, 64]
  gather_S2x64_S8x256x256x1_S8x256x256x64_3_0_n_n_0_3_164_wf : GatherDims.WF S2x64 S8x256x256x1 S8x256x256x64 [3] [0] [] [0] [] 3 ![1, 64]

variable [Facts₀]

def gather_S169x64_S8x256x1_S8x256x64_2_0_n_n_0_2_164 : GatherDims S169x64 S8x256x1 S8x256x64 where
  offsetDims := [2]
  collapsedSliceDims := [0]
  operandBatchingDims := []
  startIndicesBatchingDims := []
  startIndexMap := [0]
  indexVectorDim := 2
  sliceSizes := ![1, 64]
  wf := gather_S169x64_S8x256x1_S8x256x64_2_0_n_n_0_2_164_wf
def gather_S50000x64_S8x256x1_S8x256x64_2_0_n_n_0_2_164 : GatherDims S50000x64 S8x256x1 S8x256x64 where
  offsetDims := [2]
  collapsedSliceDims := [0]
  operandBatchingDims := []
  startIndicesBatchingDims := []
  startIndexMap := [0]
  indexVectorDim := 2
  sliceSizes := ![1, 64]
  wf := gather_S50000x64_S8x256x1_S8x256x64_2_0_n_n_0_2_164_wf
def gather_S10000x64_S8x256x1_S8x256x64_2_0_n_n_0_2_164 : GatherDims S10000x64 S8x256x1 S8x256x64 where
  offsetDims := [2]
  collapsedSliceDims := [0]
  operandBatchingDims := []
  startIndicesBatchingDims := []
  startIndexMap := [0]
  indexVectorDim := 2
  sliceSizes := ![1, 64]
  wf := gather_S10000x64_S8x256x1_S8x256x64_2_0_n_n_0_2_164_wf
def gather_S2x64_S8x256x256x1_S8x256x256x64_3_0_n_n_0_3_164 : GatherDims S2x64 S8x256x256x1 S8x256x256x64 where
  offsetDims := [3]
  collapsedSliceDims := [0]
  operandBatchingDims := []
  startIndicesBatchingDims := []
  startIndexMap := [0]
  indexVectorDim := 3
  sliceSizes := ![1, 64]
  wf := gather_S2x64_S8x256x256x1_S8x256x256x64_3_0_n_n_0_3_164_wf

class Facts : Prop extends Facts₀ where

variable [Facts]
-- ==== Proof.Spec.lean ====
/-
  The arithmetic that joins the two programs, one output element at a time, on the extended reals.

  Each of the four small tables has two rows. The kernel picks a row ARITHMETICALLY: row0 + w · (row1 − row0), where the
  weight w is the product of two validity flags, each a one-bit word widened to a 32-bit word and read as a signed
  integer (so each is 0 or 1, and w = 1 exactly when both flags are set). The reference picks the row BY INDEX: it looks
  up row (flag₁ AND flag₂). For REAL table entries the two agree: with w = 0 the correction term vanishes (0 · x = 0 on
  the extended reals), with w = 1 the sum row0 + (row1 − row0) is row1, which needs row0 to be a real number — the one
  place where finiteness of the inputs is used. The kernel then scales by the literal 1, the reference divides by it;
  both leave the value unchanged.
-/
import Idealize.ShloMosaic.PureOps.Ideal.Laws
import Idealize.ShloMosaic.Lib.IdealHost

noncomputable section

namespace Cert.Proof.Spec

open Idealize.ShloMosaic

/-- A one-bit word widened to 32 bits and read signed is 0 or 1. -/
theorem toInt_setWidth_zero : (((0#1 : BitVec 1).setWidth 32).toInt : ℝ) = 0 := by
  have : ((0#1 : BitVec 1).setWidth 32).toInt = 0 := by decide
  rw [this]; norm_num

theorem toInt_setWidth_one : (((1#1 : BitVec 1).setWidth 32).toInt : ℝ) = 1 := by
  have : ((1#1 : BitVec 1).setWidth 32).toInt = 1 := by decide
  rw [this]; norm_num

/-- THE ROW LAW. For real rows t0, t1 and flags u, v: t0 + (u · v) · (t1 − t0) is t1 when both flags are set, t0 otherwise. -/
theorem lerp_eq_row (t0 t1 : ℝ) (u v : BitVec 1) :
    (t0 : EReal) + ((((u.setWidth 32).toInt : ℝ) : EReal) * (((v.setWidth 32).toInt : ℝ) : EReal)) * ((t1 : EReal) - (t0 : EReal))
      = if u &&& v = 1#1 then (t1 : EReal) else (t0 : EReal) := by
  rcases BitVec.eq_zero_or_eq_one u with hu | hu <;> rcases BitVec.eq_zero_or_eq_one v with hv | hv <;> subst hu <;> subst hv
  · rw [if_neg (by decide), toInt_setWidth_zero, EReal.coe_zero, zero_mul, zero_mul, add_zero]
  · rw [if_neg (by decide), toInt_setWidth_zero, toInt_setWidth_one, EReal.coe_zero, zero_mul, zero_mul, add_zero]
  · rw [if_neg (by decide), toInt_setWidth_zero, toInt_setWidth_one, EReal.coe_zero, mul_zero, zero_mul, add_zero]
  · rw [if_pos (by decide), toInt_setWidth_one, EReal.coe_one, one_mul, one_mul, ← EReal.coe_sub, ← EReal.coe_add]
    congr 1; ring

/-- Dividing by the literal one is scaling by it: both leave an extended real unchanged. -/
theorem div_one_eq_mul_one (x : EReal) :
    Ideal.div x (Ideal.ofBits .f32 0x3F800000#32) = x * Ideal.ofBits .f32 0x3F800000#32 := by
  rw [Ideal.ofBits_one_f32, ← EReal.coe_one, Ideal.div_coe one_ne_zero, one_div, inv_one]

/-- ONE OUTPUT ELEMENT from its twelve scalar inputs, in the kernel's arrangement: each table's row is chosen as
    row0 + (row flag · column flag) · (row1 − row0), the flags 32-bit words read signed; the spatial pair of tables is
    weighted by (1 − ds) and (ds − 0), the temporal pair by (1 − dt) and (dt − 0); each half is scaled by the literal one
    and the halves are added. -/
def cell (sl0 sl1 su0 su1 tl0 tl1 tu0 tu1 ds dt : EReal) (vr vc : BitVec 32) : EReal :=
  FloatOps.addf (F := Ideal) (φ := .f32)
    (FloatOps.mulf (FloatOps.addf
      (FloatOps.mulf (FloatOps.addf sl0 (FloatOps.mulf (FloatOps.mulf (FloatOps.sitofp .f32 vr) (FloatOps.sitofp .f32 vc)) (FloatOps.subf sl1 sl0))) (FloatOps.subf (Scalar.ofBits .f32 0x3F800000#32) ds))
      (FloatOps.mulf (FloatOps.addf su0 (FloatOps.mulf (FloatOps.mulf (FloatOps.sitofp .f32 vr) (FloatOps.sitofp .f32 vc)) (FloatOps.subf su1 su0))) (FloatOps.subf ds (Scalar.ofBits .f32 0x00000000#32))))
      (Scalar.ofBits .f32 0x3F800000#32))
    (FloatOps.mulf (FloatOps.addf
      (FloatOps.mulf (FloatOps.addf tl0 (FloatOps.mulf (FloatOps.mulf (FloatOps.sitofp .f32 vr) (FloatOps.sitofp .f32 vc)) (FloatOps.subf tl1 tl0))) (FloatOps.subf (Scalar.ofBits .f32 0x3F800000#32) dt))
      (FloatOps.mulf (FloatOps.addf tu0 (FloatOps.mulf (FloatOps.mulf (FloatOps.sitofp .f32 vr) (FloatOps.sitofp .f32 vc)) (FloatOps.subf tu1 tu0))) (FloatOps.subf dt (Scalar.ofBits .f32 0x00000000#32))))
      (Scalar.ofBits .f32 0x3F800000#32))

/-- `cell` respects equality of each of its twelve inputs. -/
theorem cell_congr {a1 a2 a3 a4 a5 a6 a7 a8 a9 a10 b1 b2 b3 b4 b5 b6 b7 b8 b9 b10 : EReal} {v1 v2 w1 w2 : BitVec 32}
    (h1 : a1 = b1) (h2 : a2 = b2) (h3 : a3 = b3) (h4 : a4 = b4) (h5 : a5 = b5) (h6 : a6 = b6) (h7 : a7 = b7) (h8 : a8 = b8)
    (h9 : a9 = b9) (h10 : a10 = b10) (h11 : v1 = w1) (h12 : v2 = w2) :
    cell a1 a2 a3 a4 a5 a6 a7 a8 a9 a10 v1 v2 = cell b1 b2 b3 b4 b5 b6 b7 b8 b9 b10 w1 w2 := by
  subst h1 h2 h3 h4 h5 h6 h7 h8 h9 h10 h11 h12; rfl

/-- THE ELEMENT LAW. With real table rows and one-bit flags a, b, the kernel's element is the reference's: the row
    picked by index (row 1 when a AND b is set, row 0 otherwise), the same weights, each half divided by the literal one. -/
theorem cell_eq (s0 s1 u0 u1 t0 t1 w0 w1 : ℝ) (ds dt : EReal) (a b : BitVec 1) :
    cell s0 s1 u0 u1 t0 t1 w0 w1 ds dt (a.setWidth 32) (b.setWidth 32)
      = Ideal.div ((if a &&& b = 1#1 then (s1 : EReal) else (s0 : EReal)) * (Ideal.ofBits .f32 0x3F800000#32 - ds)
            + (if a &&& b = 1#1 then (u1 : EReal) else (u0 : EReal)) * (ds - Ideal.ofBits .f32 0x00000000#32)) (Ideal.ofBits .f32 0x3F800000#32)
        + Ideal.div ((if a &&& b = 1#1 then (t1 : EReal) else (t0 : EReal)) * (Ideal.ofBits .f32 0x3F800000#32 - dt)
            + (if a &&& b = 1#1 then (w1 : EReal) else (w0 : EReal)) * (dt - Ideal.ofBits .f32 0x00000000#32)) (Ideal.ofBits .f32 0x3F800000#32) := by
  rw [div_one_eq_mul_one, div_one_eq_mul_one, ← lerp_eq_row s0 s1 a b, ← lerp_eq_row u0 u1 a b, ← lerp_eq_row t0 t1 a b,
    ← lerp_eq_row w0 w1 a b]
  rfl

/-- The row the reference's lookup lands on: the flags' conjunction, widened to 32 bits; a negative row number would be
    moved up by the table's two rows (it never is), then the number is read signed and kept inside the table. -/
theorem row_of_flags (u v : BitVec 1) :
    min (Scalar.select (IntOp.cmpi .slt ((u &&& v).setWidth 32) 0#32) (IntOp.addi ((u &&& v).setWidth 32) 2#32) ((u &&& v).setWidth 32)).toInt.toNat (2 - 1)
      = if u &&& v = 1#1 then 1 else 0 := by
  rcases BitVec.eq_zero_or_eq_one u with hu | hu <;> rcases BitVec.eq_zero_or_eq_one v with hv | hv <;> subst hu <;> subst hv <;> decide

end Cert.Proof.Spec

end
-- ==== Proof.KernelBlock.lean ====
/-
  What the kernel leaves in its output array, as ONE function of the arrays the launch reads.

  The launch visits 8 × 4 grid points (b, s). At (b, s) the body sees: rows 64·s … 64·s+63 of batch b of the distance
  array (all 256 columns, both planes), the row flags of those 64 rows, the column flags of batch b, and the four two-row
  tables whole; it writes the block (b, rows 64·s … 64·s+63, all columns, all 64 features) of the output. Every element
  it writes is the same expression `cell` of twelve scalars: the two rows of each table at the element's feature, the two
  planes of the distance array at the element's (row, column), the row flag of its row and the column flag of its column.
  So the block written at a point is the restriction of one whole-array function `Gk`; the 32 blocks tile the output,
  hence the output array ends equal to `Gk`.
-/
import proofs.«158873_j60696477827085_1_alg».proof.Proof.KernelValuePatched
import proofs.«158873_j60696477827085_1_alg».proof.Proof.Spec
import Idealize.ShloMosaic.Lib.ValueIdx

noncomputable section

namespace Cert.Proof.KernelBlock

open Cert.KernelIdeal Cert.KernelIdeal.Gen Idealize.ShloMosaic Idealize.ShloMosaic.TcCoe Idealize.SL.Sem Idealize.ShloMosaic.ValueIdx
open Idealize.ShloMosaic.Pipeline (Dat)
open Cert.Proof.Spec (cell cell_congr)

/-- The block as one index-by-index function of the loads is `cell` of the loads at the element's coordinates. -/
theorem E7_cell (P0 : Vec Ideal S1x64 .f32) (P1 : Vec Ideal S1x64x1 .i32) (P2 : Vec Ideal S1x1x256 .i32) (P3 : Vec Ideal S1x64 .f32) (P4 : Vec Ideal S1x64x256x1 .f32) (P5 P6 P7 P8 : Vec Ideal S1x64 .f32) (P9 : Vec Ideal S1x64x256x1 .f32) (P10 P11 : Vec Ideal S1x64 .f32) (y : S1x64x256x64.Idx) :
    Cert.KernelIdeal.ValueP.E7 P0 P1 P2 P3 P4 P5 P6 P7 P8 P9 P10 P11 y
      = cell (P0 (Cert.KernelIdeal.ValueP.ix7_0 y)) (P3 (Cert.KernelIdeal.ValueP.ix7_0 y)) (P5 (Cert.KernelIdeal.ValueP.ix7_0 y)) (P6 (Cert.KernelIdeal.ValueP.ix7_0 y))
          (P7 (Cert.KernelIdeal.ValueP.ix7_0 y)) (P8 (Cert.KernelIdeal.ValueP.ix7_0 y)) (P10 (Cert.KernelIdeal.ValueP.ix7_0 y)) (P11 (Cert.KernelIdeal.ValueP.ix7_0 y))
          (P4 (Cert.KernelIdeal.ValueP.ix7_5 y)) (P9 (Cert.KernelIdeal.ValueP.ix7_5 y)) (P1 (Cert.KernelIdeal.ValueP.ix7_1 y)) (P2 (Cert.KernelIdeal.ValueP.ix7_2 y)) := rfl

/-- An index's coordinates with their literal extents. -/
abbrev q1 (y : S1x64x256x64.Idx) : Fin 64 := ⟨(y 1).val, (y 1).isLt⟩
abbrev q2 (y : S1x64x256x64.Idx) : Fin 256 := ⟨(y 2).val, (y 2).isLt⟩
abbrev q3 (y : S1x64x256x64.Idx) : Fin 64 := ⟨(y 3).val, (y 3).isLt⟩

/-- WHAT THE BODY LEAVES IN THE OUTPUT'S BLOCK, for any contents of the seven input blocks: at (0, r, k, f) the `cell` of
    the tables' two rows at feature f, the distance block's two planes at (r, k), row flag r and column flag k. -/
theorem out_cell (x0 : Vec Ideal S1x64x256x2 .f32) (x1 : Vec Ideal S1x64x1 .i32) (x2 : Vec Ideal S1x1x256 .i32)
    (x3 x4 x5 x6 : Vec Ideal S2x64 .f32) (y : S1x64x256x64.Idx) :
    out0_7 x0 x1 x2 x3 x4 x5 x6 y
      = cell (x3 (ix2 (0 : Fin 2) (q3 y))) (x3 (ix2 (1 : Fin 2) (q3 y))) (x4 (ix2 (0 : Fin 2) (q3 y))) (x4 (ix2 (1 : Fin 2) (q3 y)))
          (x5 (ix2 (0 : Fin 2) (q3 y))) (x5 (ix2 (1 : Fin 2) (q3 y))) (x6 (ix2 (0 : Fin 2) (q3 y))) (x6 (ix2 (1 : Fin 2) (q3 y)))
          (x0 (ix4 (0 : Fin 1) (q1 y) (q2 y) (0 : Fin 2))) (x0 (ix4 (0 : Fin 1) (q1 y) (q2 y) (1 : Fin 2)))
          (x1 (ix3 (0 : Fin 1) (q1 y) (0 : Fin 1))) (x2 (ix3 (0 : Fin 1) (0 : Fin 1) (q2 y))) := by
  have e_lo : r0_4.emb (Cert.KernelIdeal.ValueP.ix7_0 y) = ix2 (0 : Fin 2) (q3 y) := by
    funext a; apply Fin.ext
    match a with
    | ⟨0, _⟩ => rfl
    | ⟨1, _⟩ => show 0 + 1 * (y 3).val = (y 3).val; omega
  have e_hi : r0_5.emb (Cert.KernelIdeal.ValueP.ix7_0 y) = ix2 (1 : Fin 2) (q3 y) := by
    funext a; apply Fin.ext
    match a with
    | ⟨0, _⟩ => rfl
    | ⟨1, _⟩ => show 0 + 1 * (y 3).val = (y 3).val; omega
  have e_m0 : r0_0.emb (Cert.KernelIdeal.ValueP.ix7_5 y) = ix4 (0 : Fin 1) (q1 y) (q2 y) (0 : Fin 2) := by
    funext a; apply Fin.ext
    match a with
    | ⟨0, _⟩ => rfl
    | ⟨1, _⟩ => show 0 + 1 * (y 1).val = (y 1).val; omega
    | ⟨2, _⟩ => show 0 + 1 * (y 2).val = (y 2).val; omega
    | ⟨3, _⟩ => rfl
  have e_m1 : r0_1.emb (Cert.KernelIdeal.ValueP.ix7_5 y) = ix4 (0 : Fin 1) (q1 y) (q2 y) (1 : Fin 2) := by
    funext a; apply Fin.ext
    match a with
    | ⟨0, _⟩ => rfl
    | ⟨1, _⟩ => show 0 + 1 * (y 1).val = (y 1).val; omega
    | ⟨2, _⟩ => show 0 + 1 * (y 2).val = (y 2).val; omega
    | ⟨3, _⟩ => rfl
  have e_r : r0_2.emb (Cert.KernelIdeal.ValueP.ix7_1 y) = ix3 (0 : Fin 1) (q1 y) (0 : Fin 1) := by
    funext a; apply Fin.ext
    match a with
    | ⟨0, _⟩ => rfl
    | ⟨1, _⟩ => show 0 + 1 * (y 1).val = (y 1).val; omega
    | ⟨2, _⟩ => rfl
  have e_c : r0_3.emb (Cert.KernelIdeal.ValueP.ix7_2 y) = ix3 (0 : Fin 1) (0 : Fin 1) (q2 y) := by
    funext a; apply Fin.ext
    match a with
    | ⟨0, _⟩ => rfl
    | ⟨1, _⟩ => rfl
    | ⟨2, _⟩ => show 0 + 1 * (y 2).val = (y 2).val; omega
  unfold out0_7
  rw [Cert.KernelIdeal.ValueP.canon7_eq, E7_cell]
  show cell (x3 (r0_4.emb (Cert.KernelIdeal.ValueP.ix7_0 y))) (x3 (r0_5.emb (Cert.KernelIdeal.ValueP.ix7_0 y)))
      (x4 (r0_4.emb (Cert.KernelIdeal.ValueP.ix7_0 y))) (x4 (r0_5.emb (Cert.KernelIdeal.ValueP.ix7_0 y)))
      (x5 (r0_4.emb (Cert.KernelIdeal.ValueP.ix7_0 y))) (x5 (r0_5.emb (Cert.KernelIdeal.ValueP.ix7_0 y)))
      (x6 (r0_4.emb (Cert.KernelIdeal.ValueP.ix7_0 y))) (x6 (r0_5.emb (Cert.KernelIdeal.ValueP.ix7_0 y)))
      (x0 (r0_0.emb (Cert.KernelIdeal.ValueP.ix7_5 y))) (x0 (r0_1.emb (Cert.KernelIdeal.ValueP.ix7_5 y)))
      (x1 (r0_2.emb (Cert.KernelIdeal.ValueP.ix7_1 y))) (x2 (r0_3.emb (Cert.KernelIdeal.ValueP.ix7_2 y))) = _
  rw [e_lo, e_hi, e_m0, e_m1, e_r, e_c]

/-! ## From blocks to the array -/

/-- An array index's coordinates with their literal extents. -/
abbrev c0 (i : S8x256x256x64.Idx) : Fin 8 := ⟨(i 0).val, (i 0).isLt⟩
abbrev c1 (i : S8x256x256x64.Idx) : Fin 256 := ⟨(i 1).val, (i 1).isLt⟩
abbrev c2 (i : S8x256x256x64.Idx) : Fin 256 := ⟨(i 2).val, (i 2).isLt⟩
abbrev c3 (i : S8x256x256x64.Idx) : Fin 64 := ⟨(i 3).val, (i 3).isLt⟩

/-- THE OUTPUT ARRAY AS ONE FUNCTION of the distance array, the row-flag and column-flag arrays and the four tables:
    element (b, p, q, f) is `cell` of the tables' two rows at feature f, the two planes of the distance array at
    (b, p, q), the row flag (b, p) and the column flag (b, q). -/
def Gk (mat : S8x256x256x2.Idx → EReal) (vr : S8x256x1.Idx → BitVec 32) (vc : S8x1x256.Idx → BitVec 32)
    (esl esu etl etu : S2x64.Idx → EReal) : S8x256x256x64.Idx → EReal := fun i =>
  cell (esl (ix2 (0 : Fin 2) (c3 i))) (esl (ix2 (1 : Fin 2) (c3 i))) (esu (ix2 (0 : Fin 2) (c3 i))) (esu (ix2 (1 : Fin 2) (c3 i)))
    (etl (ix2 (0 : Fin 2) (c3 i))) (etl (ix2 (1 : Fin 2) (c3 i))) (etu (ix2 (0 : Fin 2) (c3 i))) (etu (ix2 (1 : Fin 2) (c3 i)))
    (mat (ix4 (c0 i) (c1 i) (c2 i) (0 : Fin 2))) (mat (ix4 (c0 i) (c1 i) (c2 i) (1 : Fin 2)))
    (vr (ix3 (c0 i) (c1 i) (0 : Fin 1))) (vc (ix3 (c0 i) (0 : Fin 1) (c2 i)))

variable (m : (ℓ : Loc nD τ sig) → Buf (Elt Ideal) ℓ) (ρ : Dev nD → PrngReg)

/-- The printed index maps, decided over the 32 grid points: the distance block and the row-flag block move with the
    output block on the batch and row-tile axes, the column-flag block on the batch axis only, the tables never; the
    output's block index is (batch, row tile, 0, 0) with batch below 8 and row tile below 4. -/
theorem idx_facts : ∀ t : Fin cfg0.N,
    win0_0.index t (0 : Fin 4) = win0_7.index t (0 : Fin 4) ∧ win0_0.index t (1 : Fin 4) = win0_7.index t (1 : Fin 4)
    ∧ win0_0.index t (2 : Fin 4) = 0 ∧ win0_0.index t (3 : Fin 4) = 0
    ∧ win0_1.index t (0 : Fin 3) = win0_7.index t (0 : Fin 4) ∧ win0_1.index t (1 : Fin 3) = win0_7.index t (1 : Fin 4)
    ∧ win0_1.index t (2 : Fin 3) = 0
    ∧ win0_2.index t (0 : Fin 3) = win0_7.index t (0 : Fin 4) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (2 : Fin 4) = 0 ∧ win0_7.index t (3 : Fin 4) = 0
    ∧ win0_7.index t (0 : Fin 4) < 8 ∧ win0_7.index t (1 : Fin 4) < 4 :=
  (by decide +kernel : ∀ t : Fin grid0.N, _)

/-- Every (batch, row tile) is SOME point's output block. -/
theorem idx_onto : ∀ (b : Fin 8) (s : Fin 4), ∃ t : Fin cfg0.N, win0_7.index t = ![b.val, s.val, 0, 0] :=
  (by decide +kernel : ∀ (b : Fin 8) (s : Fin 4), ∃ t : Fin grid0.N, win0_7.index t = ![b.val, s.val, 0, 0])

/-- A block read through its window is the array at the element's place in the array (one lemma per window). -/
theorem rd0 (A : S8x256x256x2.Idx → EReal) (t : Fin cfg0.N) (z : S1x64x256x2.Idx) :
    ((cfg0.win 0).blk t).view.read (Elt Ideal) A z = A (((cfg0.win 0).blk t).view.emb z) := rfl
theorem rd1 (A : S8x256x1.Idx → BitVec 32) (t : Fin cfg0.N) (z : S1x64x1.Idx) :
    ((cfg0.win 1).blk t).view.read (Elt Ideal) A z = A (((cfg0.win 1).blk t).view.emb z) := rfl
theorem rd2 (A : S8x1x256.Idx → BitVec 32) (t : Fin cfg0.N) (z : S1x1x256.Idx) :
    ((cfg0.win 2).blk t).view.read (Elt Ideal) A z = A (((cfg0.win 2).blk t).view.emb z) := rfl
theorem rd3 (A : S2x64.Idx → EReal) (t : Fin cfg0.N) (z : S2x64.Idx) :
    ((cfg0.win 3).blk t).view.read (Elt Ideal) A z = A (((cfg0.win 3).blk t).view.emb z) := rfl
theorem rd4 (A : S2x64.Idx → EReal) (t : Fin cfg0.N) (z : S2x64.Idx) :
    ((cfg0.win 4).blk t).view.read (Elt Ideal) A z = A (((cfg0.win 4).blk t).view.emb z) := rfl
theorem rd5 (A : S2x64.Idx → EReal) (t : Fin cfg0.N) (z : S2x64.Idx) :
    ((cfg0.win 5).blk t).view.read (Elt Ideal) A z = A (((cfg0.win 5).blk t).view.emb z) := rfl
theorem rd6 (A : S2x64.Idx → EReal) (t : Fin cfg0.N) (z : S2x64.Idx) :
    ((cfg0.win 6).blk t).view.read (Elt Ideal) A z = A (((cfg0.win 6).blk t).view.emb z) := rfl

/-- BLOCK `t` OF `Gk`: for ANY seven arrays, the body's result on their blocks at point `t` is `Gk` of the arrays read
    through the output's block at `t`. -/
theorem block_eq (A0 : S8x256x256x2.Idx → EReal) (A1 : S8x256x1.Idx → BitVec 32) (A2 : S8x1x256.Idx → BitVec 32)
    (A3 A4 A5 A6 : S2x64.Idx → EReal) (t : Fin cfg0.N) (y : S1x64x256x64.Idx) :
    out0_7 (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6) y
      = Gk A0 A1 A2 A3 A4 A5 A6 (((cfg0.win 7).blk t).view.emb y) := by
  obtain ⟨a00, a01, a02, a03, a10, a11, a12, a20, a21, a22, a30, a31, a40, a41, a50, a51, a60, a61, a72, a73, a70, a71⟩ := idx_facts t
  refine (out_cell (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) (((cfg0.win 5).blk t).view.read (Elt Ideal) A5)
      (((cfg0.win 6).blk t).view.read (Elt Ideal) A6) y).trans ?_
  have hy0 : (y 0).val < 1 := (y 0).isLt
  have hy1 : (y 1).val < 64 := (y 1).isLt
  have hy2 : (y 2).val < 256 := (y 2).isLt
  have hy3 : (y 3).val < 64 := (y 3).isLt
  have hm (o : Fin 2) : ((cfg0.win 0).blk t).view.emb (ix4 (0 : Fin 1) (q1 y) (q2 y) o)
      = ix4 (c0 (((cfg0.win 7).blk t).view.emb y)) (c1 (((cfg0.win 7).blk t).view.emb y)) (c2 (((cfg0.win 7).blk t).view.emb y)) o := by
    funext a; apply Fin.ext
    match a with
    | ⟨0, _⟩ => show win0_0.index t (0 : Fin 4) * 1 + 1 * 0 = win0_7.index t (0 : Fin 4) * 1 + 1 * (y 0).val; omega
    | ⟨1, _⟩ => show win0_0.index t (1 : Fin 4) * 64 + 1 * (y 1).val = win0_7.index t (1 : Fin 4) * 64 + 1 * (y 1).val; omega
    | ⟨2, _⟩ => show win0_0.index t (2 : Fin 4) * 256 + 1 * (y 2).val = win0_7.index t (2 : Fin 4) * 256 + 1 * (y 2).val; omega
    | ⟨3, _⟩ => show win0_0.index t (3 : Fin 4) * 2 + 1 * o.val = o.val; omega
  have hr : ((cfg0.win 1).blk t).view.emb (ix3 (0 : Fin 1) (q1 y) (0 : Fin 1))
      = ix3 (c0 (((cfg0.win 7).blk t).view.emb y)) (c1 (((cfg0.win 7).blk t).view.emb y)) (0 : Fin 1) := by
    funext a; apply Fin.ext
    match a with
    | ⟨0, _⟩ => show win0_1.index t (0 : Fin 3) * 1 + 1 * 0 = win0_7.index t (0 : Fin 4) * 1 + 1 * (y 0).val; omega
    | ⟨1, _⟩ => show win0_1.index t (1 : Fin 3) * 64 + 1 * (y 1).val = win0_7.index t (1 : Fin 4) * 64 + 1 * (y 1).val; omega
    | ⟨2, _⟩ => show win0_1.index t (2 : Fin 3) * 1 + 1 * 0 = 0; omega
  have hc : ((cfg0.win 2).blk t).view.emb (ix3 (0 : Fin 1) (0 : Fin 1) (q2 y))
      = ix3 (c0 (((cfg0.win 7).blk t).view.emb y)) (0 : Fin 1) (c2 (((cfg0.win 7).blk t).view.emb y)) := by
    funext a; apply Fin.ext
    match a with
    | ⟨0, _⟩ => show win0_2.index t (0 : Fin 3) * 1 + 1 * 0 = win0_7.index t (0 : Fin 4) * 1 + 1 * (y 0).val; omega
    | ⟨1, _⟩ => show win0_2.index t (1 : Fin 3) * 1 + 1 * 0 = 0; omega
    | ⟨2, _⟩ => show win0_2.index t (2 : Fin 3) * 256 + 1 * (y 2).val = win0_7.index t (2 : Fin 4) * 256 + 1 * (y 2).val; omega
  have h3 (o : Fin 2) : ((cfg0.win 3).blk t).view.emb (ix2 o (q3 y)) = ix2 o (c3 (((cfg0.win 7).blk t).view.emb y)) := by
    funext a; apply Fin.ext
    match a with
    | ⟨0, _⟩ => show win0_3.index t (0 : Fin 2) * 2 + 1 * o.val = o.val; omega
    | ⟨1, _⟩ => show win0_3.index t (1 : Fin 2) * 64 + 1 * (y 3).val = win0_7.index t (3 : Fin 4) * 64 + 1 * (y 3).val; omega
  have h4 (o : Fin 2) : ((cfg0.win 4).blk t).view.emb (ix2 o (q3 y)) = ix2 o (c3 (((cfg0.win 7).blk t).view.emb y)) := by
    funext a; apply Fin.ext
    match a with
    | ⟨0, _⟩ => show win0_4.index t (0 : Fin 2) * 2 + 1 * o.val = o.val; omega
    | ⟨1, _⟩ => show win0_4.index t (1 : Fin 2) * 64 + 1 * (y 3).val = win0_7.index t (3 : Fin 4) * 64 + 1 * (y 3).val; omega
  have h5 (o : Fin 2) : ((cfg0.win 5).blk t).view.emb (ix2 o (q3 y)) = ix2 o (c3 (((cfg0.win 7).blk t).view.emb y)) := by
    funext a; apply Fin.ext
    match a with
    | ⟨0, _⟩ => show win0_5.index t (0 : Fin 2) * 2 + 1 * o.val = o.val; omega
    | ⟨1, _⟩ => show win0_5.index t (1 : Fin 2) * 64 + 1 * (y 3).val = win0_7.index t (3 : Fin 4) * 64 + 1 * (y 3).val; omega
  have h6 (o : Fin 2) : ((cfg0.win 6).blk t).view.emb (ix2 o (q3 y)) = ix2 o (c3 (((cfg0.win 7).blk t).view.emb y)) := by
    funext a; apply Fin.ext
    match a with
    | ⟨0, _⟩ => show win0_6.index t (0 : Fin 2) * 2 + 1 * o.val = o.val; omega
    | ⟨1, _⟩ => show win0_6.index t (1 : Fin 2) * 64 + 1 * (y 3).val = win0_7.index t (3 : Fin 4) * 64 + 1 * (y 3).val; omega
  rw [rd3, rd3, rd4, rd4, rd5, rd5, rd6, rd6, rd0, rd0, rd1, rd2]
  exact cell_congr (congrArg A3 (h3 0)) (congrArg A3 (h3 1)) (congrArg A4 (h4 0)) (congrArg A4 (h4 1))
    (congrArg A5 (h5 0)) (congrArg A5 (h5 1)) (congrArg A6 (h6 0)) (congrArg A6 (h6 1))
    (congrArg A0 (hm 0)) (congrArg A0 (hm 1)) (congrArg A1 hr) (congrArg A2 hc)

/-- WHAT POINT `t` WRITES BACK is block `t` of `Gk` of the arrays as the launch finds them. -/
theorem flushed_eq (c : Dev nD) (t : Fin cfg0.N) :
    (dats m 0 c).flushed 7 t = ((cfg0.win 7).blk t).view.read (Elt Ideal)
      (Gk (V m c main_arg1) (V m c main_v41) (V m c main_v42) (V m c main_arg7) (V m c main_arg6) (V m c main_arg9) (V m c main_arg8)) := by
  rw [Cert.KernelIdeal.ValueP.flushed7]
  funext y
  exact block_eq (V m c main_arg1) (V m c main_v41) (V m c main_v42) (V m c main_arg7) (V m c main_arg6) (V m c main_arg9) (V m c main_arg8) t y

/-- An index of the array is in point `t`'s block iff each coordinate is in the block's range on its axis. -/
theorem mem_blk (t : Fin cfg0.N) (i : S8x256x256x64.Idx) :
    i ∈ ((cfg0.win 7).blk t).view.set ↔ ∀ a : Fin 4, win0_7.index t a * S1x64x256x64.size a ≤ (i a).val ∧ (i a).val < win0_7.index t a * S1x64x256x64.size a + S1x64x256x64.size a := by
  show i ∈ ((View.whole main_v43).slice (win0_7.rect t)).set ↔ _
  rw [View.set_slice_whole, Rect.mem_set_unit]
  exact Iff.rfl

/-- The 32 blocks cover the array: element (b, p, q, f) is in the block of the point whose output block is (b, p / 64). -/
theorem cover (i : S8x256x256x64.Idx) : ∃ t : Fin cfg0.N, (cfg0.win 7).flush t = true ∧ i ∈ ((cfg0.win 7).blk t).view.set := by
  have hi0 : (i 0).val < 8 := (i 0).isLt
  have hi1 : (i 1).val < 256 := (i 1).isLt
  have hi2 : (i 2).val < 256 := (i 2).isLt
  have hi3 : (i 3).val < 64 := (i 3).isLt
  obtain ⟨t, ht⟩ := idx_onto ⟨(i 0).val, hi0⟩ ⟨(i 1).val / 64, by omega⟩
  have e0 : win0_7.index t (0 : Fin 4) = (i 0).val := congrFun ht 0
  have e1 : win0_7.index t (1 : Fin 4) = (i 1).val / 64 := congrFun ht 1
  have e2 : win0_7.index t (2 : Fin 4) = 0 := congrFun ht 2
  have e3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 64 ≤ (i 1).val ∧ (i 1).val < win0_7.index t (1 : Fin 4) * 64 + 64; omega
  | ⟨2, _⟩ => show win0_7.index t (2 : Fin 4) * 256 ≤ (i 2).val ∧ (i 2).val < win0_7.index t (2 : Fin 4) * 256 + 256; omega
  | ⟨3, _⟩ => show win0_7.index t (3 : Fin 4) * 64 ≤ (i 3).val ∧ (i 3).val < win0_7.index t (3 : Fin 4) * 64 + 64; omega

/-- THE OUTPUT ARRAY after the launch is `Gk` of the arrays as the launch finds them. -/
theorem final (c : Dev nD) :
    (dats m 0 c).arrAt 7 cfg0.N
      = Gk (V m c main_arg1) (V m c main_v41) (V m c main_v42) (V m c main_arg7) (V m c main_arg6) (V m c main_arg9) (V m c main_arg8) :=
  (dats m 0 c).arrAt_eq_of_cover 7 _ (fun t _ => flushed_eq m c t) cover

/-! ## The kernel program's run, both results named -/

/-- The first result's buffer is written by the host operations before the launch and is no window's array: the launch
    leaves it as it found it. -/
theorem post_v33 (r : PUnit × MemSt nD τ sig (Elt Ideal)) (h : Pipeline.FramePost cfgs (dats m) 0 (V m) r) (c : Dev nD) :
    r.2.mem ((c : Thread nD τ).loc main_v33) = V m c main_v33 :=
  (h c).2 main_v33 (Pipeline.mem_restRefs_of main_v33 (by decide) (by decide))

/-- Every weakly fair execution of the kernel program ends with the first result at what the host operations before
    the launch computed, the second at `Gk` of the arrays the launch reads, and the arguments unchanged. -/
theorem run : θ_run defs (onTc (τ := τ) (main (F := Ideal))) ⟨m, fun _ => 0, ρ⟩ fun r => ∀ c : Dev nD,
      r.2.mem ((c : Thread nD τ).loc main_v33) = V m c main_v33
      ∧ r.2.mem ((c : Thread nD τ).loc main_v43)
          = Gk (V m c main_arg1) (V m c main_v41) (V m c main_v42) (V m c main_arg7) (V m c main_arg6) (V m c main_arg9) (V m c main_arg8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post_v33 m r h c,
      (Cert.KernelIdeal.ValueP.post7 m r h c).trans (final m c),
      Cert.KernelIdeal.ValueP.kept_main_arg0 m r h c,
      Cert.KernelIdeal.ValueP.kept_main_arg1 m r h c,
      Cert.KernelIdeal.ValueP.kept_main_arg2 m r h c,
      Cert.KernelIdeal.ValueP.kept_main_arg3 m r h c,
      Cert.KernelIdeal.ValueP.kept_main_arg4 m r h c,
      Cert.KernelIdeal.ValueP.kept_main_arg5 m r h c,
      Cert.KernelIdeal.ValueP.kept_main_arg6 m r h c,
      Cert.KernelIdeal.ValueP.kept_main_arg7 m r h c,
      Cert.KernelIdeal.ValueP.kept_main_arg8 m r h c,
      Cert.KernelIdeal.ValueP.kept_main_arg9 m r h c⟩)
    (run_main m ρ)

end Cert.Proof.KernelBlock

end
-- ==== Proof.RefRun.lean ====
/-
   The reference program as a straight line of host operations, and its run.

   The printed reference's @main is three windows run in order. All its statements are single StableHLO operations
   on whole buffers, except one: the first window calls the outlined function `@remainder` (the floored remainder
   of `%3` by the scalar 168: twenty operations on the buffers of the record `main_call0`), which itself calls
   `@_where` (one select, on the record `main_call0_call0`). A call is the callee's body applied to the operands'
   and the record's buffers, so with the two calls unfolded where they stand @main is one line of
   59 + 21 + 60 + 8 = 148 operations: `ops`, cut after the sum that writes `main_v33` (the first returned value)
   into `ops1` (63 operations) and `ops2` (85 operations, ending in the sum that writes `main_v104`, the second
   returned value).

   * `main_eq`: @main is `seq ops`. Window by window the two sides are the same chain of steps by unfolding
     (`partK_eq`, by `rfl`: the program type is a free monad, so sequencing computes); the windows are joined by
     `seq_append`.
   * `run`: on the compiled mesh, for any float values, from any memory with zero counters, every weakly fair
     execution of @main terminates, and in every final state each buffer `b` holds
     `after ops (launchContents m c) b` — the fold, in program order, of each operation's rewriting of the one
     buffer it writes, starting from the launch contents (`run_seq`; its side conditions: the signature scopes
     nothing, every operation touches TensorCore references only and determines all it writes).
   * `after_ops`: that fold is the fold of `ops2` over the fold of `ops1`.
   * `arg0_kept` … `arg9_kept`: no operation writes an argument's buffer (each writes exactly one buffer, a
     value's own, and references are told apart by computation), so the fold leaves the ten arguments as it
     found them. -/
import proofs.«158873_j60696477827085_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in program order -/

/-- 63 operations, in order: the first window up to the sum writing main_v33, the callee's operations in place. -/
abbrev ops1 : List (HloOp τ sig (Elt F)) :=
  ( StableHlo.unary main_arg0 main_v0 ((extractStridedSlice S8x256x1 ![0, 0, 2] · slices_S8x256x3_S8x256x1_0_0_2) : (⟨S8x256x3, .i32⟩ : BufTy).Contents (Elt F) → (⟨S8x256x1, .i32⟩ : BufTy).Contents (Elt F))
  :: StableHlo.reshape main_v0 main_v1 rfl shapeCasts_S8x256x1_S8x256
  :: StableHlo.nullary main_c (constantI S_ 32 1#32)
  :: StableHlo.unary main_c main_v2 (broadcastInDim S8x256 ![] bcast_S_S8x256 : (⟨S_, .i32⟩ : BufTy).Contents (Elt F) → (⟨S8x256, .i32⟩ : BufTy).Contents (Elt F))
  :: StableHlo.binary main_v1 main_v2 main_v3 (subi : (⟨S8x256, .i32⟩ : BufTy).Contents (Elt F) → (⟨S8x256, .i32⟩ : BufTy).Contents (Elt F) → (⟨S8x256, .i32⟩ : BufTy).Contents (Elt F))
  :: StableHlo.nullary main_c_0 (constantI S_ 32 168#32)
  :: StableHlo.TRef.unary (.of main_c_0 : StableHlo.TRef sig ⟨S_, .i32⟩) (.of main_call0_v0 : StableHlo.TRef sig ⟨S_, .i32⟩) id
  :: StableHlo.TRef.nullary (.of main_call0_c : StableHlo.TRef sig ⟨S_, .i32⟩) (constantI S_ 32 0#32)
  :: StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq)
  :: StableHlo.TRef.nullary (.of main_call0_c_0 : StableHlo.TRef sig ⟨S_, .i32⟩) (constantI S_ 32 1#32)
  :: StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select
  :: StableHlo.TRef.unary main_call0_call0.v0 (.of main_call0_v3 : StableHlo.TRef sig ⟨S8x256, .i32⟩) (broadcastInDim S8x256 ![] bcast_S_S8x256)
  :: StableHlo.TRef.binary (.of main_v3 : StableHlo.TRef sig ⟨S8x256, .i32⟩) (.of main_call0_v3 : StableHlo.TRef sig ⟨S8x256, .i32⟩) (.of main_call0_v4 : StableHlo.TRef sig ⟨S8x256, .i32⟩) Host.remsi
  :: StableHlo.TRef.nullary (.of main_call0_c_1 : StableHlo.TRef sig ⟨S_, .i32⟩) (constantI S_ 32 0#32)
  :: StableHlo.TRef.unary (.of main_call0_c_1 : StableHlo.TRef sig ⟨S_, .i32⟩) (.of main_call0_v5 : StableHlo.TRef sig ⟨S8x256, .i32⟩) (broadcastInDim S8x256 ![] bcast_S_S8x256)
  :: StableHlo.TRef.binary (.of main_call0_v4 : StableHlo.TRef sig ⟨S8x256, .i32⟩) (.of main_call0_v5 : StableHlo.TRef sig ⟨S8x256, .i32⟩) (.of main_call0_v6 : StableHlo.TRef sig ⟨S8x256, .i1⟩) (cmpi .ne)
  :: StableHlo.TRef.nullary (.of main_call0_c_2 : StableHlo.TRef sig ⟨S_, .i32⟩) (constantI S_ 32 0#32)
  :: StableHlo.TRef.unary (.of main_call0_c_2 : StableHlo.TRef sig ⟨S_, .i32⟩) (.of main_call0_v7 : StableHlo.TRef sig ⟨S8x256, .i32⟩) (broadcastInDim S8x256 ![] bcast_S_S8x256)
  :: StableHlo.TRef.binary (.of main_call0_v4 : StableHlo.TRef sig ⟨S8x256, .i32⟩) (.of main_call0_v7 : StableHlo.TRef sig ⟨S8x256, .i32⟩) (.of main_call0_v8 : StableHlo.TRef sig ⟨S8x256, .i1⟩) (cmpi .slt)
  :: StableHlo.TRef.nullary (.of main_call0_c_3 : StableHlo.TRef sig ⟨S_, .i32⟩) (constantI S_ 32 0#32)
  :: StableHlo.TRef.binary main_call0_call0.v0 (.of main_call0_c_3 : StableHlo.TRef sig ⟨S_, .i32⟩) (.of main_call0_v9 : StableHlo.TRef sig ⟨S_, .i1⟩) (cmpi .slt)
  :: StableHlo.TRef.unary (.of main_call0_v9 : StableHlo.TRef sig ⟨S_, .i1⟩) (.of main_call0_v10 : StableHlo.TRef sig ⟨S8x256, .i1⟩) (broadcastInDim S8x256 ![] bcast_S_S8x256)
  :: StableHlo.TRef.binary (.of main_call0_v8 : StableHlo.TRef sig ⟨S8x256, .i1⟩) (.of main_call0_v10 : StableHlo.TRef sig ⟨S8x256, .i1⟩) (.of main_call0_v11 : StableHlo.TRef sig ⟨S8x256, .i1⟩) (cmpi .ne)
  :: StableHlo.TRef.binary (.of main_call0_v11 : StableHlo.TRef sig ⟨S8x256, .i1⟩) (.of main_call0_v6 : StableHlo.TRef sig ⟨S8x256, .i1⟩) (.of main_call0_v12 : StableHlo.TRef sig ⟨S8x256, .i1⟩) andi
  :: StableHlo.TRef.unary main_call0_call0.v0 (.of main_call0_v13 : StableHlo.TRef sig ⟨S8x256, .i32⟩) (broadcastInDim S8x256 ![] bcast_S_S8x256)
  :: StableHlo.TRef.binary (.of main_call0_v4 : StableHlo.TRef sig ⟨S8x256, .i32⟩) (.of main_call0_v13 : StableHlo.TRef sig ⟨S8x256, .i32⟩) (.of main_call0_v14 : StableHlo.TRef sig ⟨S8x256, .i32⟩) addi
  :: StableHlo.TRef.ternary (.of main_call0_v12 : StableHlo.TRef sig ⟨S8x256, .i1⟩) (.of main_call0_v14 : StableHlo.TRef sig ⟨S8x256, .i32⟩) (.of main_call0_v4 : StableHlo.TRef sig ⟨S8x256, .i32⟩) (.of main_v4 : StableHlo.TRef sig ⟨S8x256, .i32⟩) select
  :: StableHlo.nullary main_c_1 (constantI S_ 32 1#32)
  :: StableHlo.unary main_c_1 main_v5 (broadcastInDim S8x256 ![] bcast_S_S8x256 : (⟨S_, .i32⟩ : BufTy).Contents (Elt F) → (⟨S8x256, .i32⟩ : BufTy).Contents (Elt F))
  :: StableHlo.binary main_v4 main_v5 main_v6 (addi : (⟨S8x256, .i32⟩ : BufTy).Contents (Elt F) → (⟨S8x256, .i32⟩ : BufTy).Contents (Elt F) → (⟨S8x256, .i32⟩ : BufTy).Contents (Elt F))
  :: StableHlo.nullary main_c_2 (constantI S_ 32 0#32)
  :: StableHlo.unary main_c_2 main_v7 (broadcastInDim S8x256 ![] bcast_S_S8x256 : (⟨S_, .i32⟩ : BufTy).Contents (Elt F) → (⟨S8x256, .i32⟩ : BufTy).Contents (Elt F))
  :: StableHlo.binary main_v6 main_v7 main_v8 (cmpi .slt : (⟨S8x256, .i32⟩ : BufTy).Contents (Elt F) → (⟨S8x256, .i32⟩ : BufTy).Contents (Elt F) → (⟨S8x256, .i1⟩ : BufTy).Contents (Elt F))
  :: StableHlo.nullary main_c_3 (constantI S_ 32 169#32)
  :: StableHlo.unary main_c_3 main_v9 (broadcastInDim S8x256 ![] bcast_S_S8x256 : (⟨S_, .i32⟩ : BufTy).Contents (Elt F) → (⟨S8x256, .i32⟩ : BufTy).Contents (Elt F))
  :: StableHlo.binary main_v6 main_v9 main_v10 (addi : (⟨S8x256, .i32⟩ : BufTy).Contents (Elt F) → (⟨S8x256, .i32⟩ : BufTy).Contents (Elt F) → (⟨S8x256, .i32⟩ : BufTy).Contents (Elt F))
  :: StableHlo.ternary main_v8 main_v10 main_v6 main_v11 (select : (⟨S8x256, .i1⟩ : BufTy).Contents (Elt F) → (⟨S8x256, .i32⟩ : BufTy).Contents (Elt F) → (⟨S8x256, .i32⟩ : BufTy).Contents (Elt F) → (⟨S8x256, .i32⟩ : BufTy).Contents (Elt F))
  :: StableHlo.unary main_v11 main_v12 (broadcastInDim S8x256x1 ![0, 1] bcast_S8x256_S8x256x1_0_1 : (⟨S8x256, .i32⟩ : BufTy).Contents (Elt F) → (⟨S8x256x1, .i32⟩ : BufTy).Contents (Elt F))
  :: StableHlo.binary main_arg3 main_v12 main_v13 ((fun x i => Host.gather gather_S169x64_S8x256x1_S8x256x64_2_0_n_n_0_2_164 x i) : (⟨S169x64, .f32⟩ : BufTy).Contents (Elt F) → (⟨S8x256x1, .i32⟩ : BufTy).Contents (Elt F) → (⟨S8x256x64, .f32⟩ : BufTy).Contents (Elt F))
  :: StableHlo.unary main_arg0 main_v14 ((extractStridedSlice S8x256x1 ![0, 0, 1] · slices_S8x256x3_S8x256x1_0_0_1) : (⟨S8x256x3, .i32⟩ : BufTy).Contents (Elt F) → (⟨S8x256x1, .i32⟩ : BufTy).Contents (Elt F))
  :: StableHlo.reshape main_v14 main_v15 rfl shapeCasts_S8x256x1_S8x256
  :: StableHlo.nullary main_c_4 (constantI S_ 32 0#32)
  :: StableHlo.unary main_c_4 main_v16 (broadcastInDim S8x256 ![] bcast_S_S8x256 : (⟨S_, .i32⟩ : BufTy).Contents (Elt F) → (⟨S8x256, .i32⟩ : BufTy).Contents (Elt F))
  :: StableHlo.binary main_v15 main_v16 main_v17 (cmpi .slt : (⟨S8x256, .i32⟩ : BufTy).Contents (Elt F) → (⟨S8x256, .i32⟩ : BufTy).Contents (Elt F) → (⟨S8x256, .i1⟩ : BufTy).Contents (Elt F))
  :: StableHlo.nullary main_c_5 (constantI S_ 32 50000#32)
  :: StableHlo.unary main_c_5 main_v18 (broadcastInDim S8x256 ![] bcast_S_S8x256 : (⟨S_, .i32⟩ : BufTy).Contents (Elt F) → (⟨S8x256, .i32⟩ : BufTy).Contents (Elt F))
  :: StableHlo.binary main_v15 main_v18 main_v19 (addi : (⟨S8x256, .i32⟩ : BufTy).Contents (Elt F) → (⟨S8x256, .i32⟩ : BufTy).Contents (Elt F) → (⟨S8x256, .i32⟩ : BufTy).Contents (Elt F))
  :: StableHlo.ternary main_v17 main_v19 main_v15 main_v20 (select : (⟨S8x256, .i1⟩ : BufTy).Contents (Elt F) → (⟨S8x256, .i32⟩ : BufTy).Contents (Elt F) → (⟨S8x256, .i32⟩ : BufTy).Contents (Elt F) → (⟨S8x256, .i32⟩ : BufTy).Contents (Elt F))
  :: StableHlo.unary main_v20 main_v21 (broadcastInDim S8x256x1 ![0, 1] bcast_S8x256_S8x256x1_0_1 : (⟨S8x256, .i32⟩ : BufTy).Contents (Elt F) → (⟨S8x256x1, .i32⟩ : BufTy).Contents (Elt F))
  :: StableHlo.binary main_arg4 main_v21 main_v22 ((fun x i => Host.gather gather_S50000x64_S8x256x1_S8x256x64_2_0_n_n_0_2_164 x i) : (⟨S50000x64, .f32⟩ : BufTy).Contents (Elt F) → (⟨S8x256x1, .i32⟩ : BufTy).Contents (Elt F) → (⟨S8x256x64, .f32⟩ : BufTy).Contents (Elt F))
  :: StableHlo.binary main_v13 main_v22 main_v23 (addf : (⟨S8x256x64, .f32⟩ : BufTy).Contents (Elt F) → (⟨S8x256x64, .f32⟩ : BufTy).Contents (Elt F) → (⟨S8x256x64, .f32⟩ : BufTy).Contents (Elt F))
  :: StableHlo.unary main_arg0 main_v24 ((extractStridedSlice S8x256x1 ![0, 0, 0] · slices_S8x256x3_S8x256x1_0_0_0) : (⟨S8x256x3, .i32⟩ : BufTy).Contents (Elt F) → (⟨S8x256x1, .i32⟩ : BufTy).Contents (Elt F))
  :: StableHlo.reshape main_v24 main_v25 rfl shapeCasts_S8x256x1_S8x256
  :: StableHlo.nullary main_c_6 (constantI S_ 32 0#32)
  :: StableHlo.unary main_c_6 main_v26 (broadcastInDim S8x256 ![] bcast_S_S8x256 : (⟨S_, .i32⟩ : BufTy).Contents (Elt F) → (⟨S8x256, .i32⟩ : BufTy).Contents (Elt F))
  :: StableHlo.binary main_v25 main_v26 main_v27 (cmpi .slt : (⟨S8x256, .i32⟩ : BufTy).Contents (Elt F) → (⟨S8x256, .i32⟩ : BufTy).Contents (Elt F) → (⟨S8x256, .i1⟩ : BufTy).Contents (Elt F))
  :: StableHlo.nullary main_c_7 (constantI S_ 32 10000#32)
  :: StableHlo.unary main_c_7 main_v28 (broadcastInDim S8x256 ![] bcast_S_S8x256 : (⟨S_, .i32⟩ : BufTy).Contents (Elt F) → (⟨S8x256, .i32⟩ : BufTy).Contents (Elt F))
  :: StableHlo.binary main_v25 main_v28 main_v29 (addi : (⟨S8x256, .i32⟩ : BufTy).Contents (Elt F) → (⟨S8x256, .i32⟩ : BufTy).Contents (Elt F) → (⟨S8x256, .i32⟩ : BufTy).Contents (Elt F))
  :: StableHlo.ternary main_v27 main_v29 main_v25 main_v30 (select : (⟨S8x256, .i1⟩ : BufTy).Contents (Elt F) → (⟨S8x256, .i32⟩ : BufTy).Contents (Elt F) → (⟨S8x256, .i32⟩ : BufTy).Contents (Elt F) → (⟨S8x256, .i32⟩ : BufTy).Contents (Elt F))
  :: StableHlo.unary main_v30 main_v31 (broadcastInDim S8x256x1 ![0, 1] bcast_S8x256_S8x256x1_0_1 : (⟨S8x256, .i32⟩ : BufTy).Contents (Elt F) → (⟨S8x256x1, .i32⟩ : BufTy).Contents (Elt F))
  :: StableHlo.binary main_arg5 main_v31 main_v32 ((fun x i => Host.gather gather_S10000x64_S8x256x1_S8x256x64_2_0_n_n_0_2_164 x i) : (⟨S10000x64, .f32⟩ : BufTy).Contents (Elt F) → (⟨S8x256x1, .i32⟩ : BufTy).Contents (Elt F) → (⟨S8x256x64, .f32⟩ : BufTy).Contents (Elt F))
  :: StableHlo.binary main_v23 main_v32 main_v33 (addf : (⟨S8x256x64, .f32⟩ : BufTy).Contents (Elt F) → (⟨S8x256x64, .f32⟩ : BufTy).Contents (Elt F) → (⟨S8x256x64, .f32⟩ : BufTy).Contents (Elt F))
  :: [] )
/-- Each of them touches TensorCore references only. -/
theorem ops1_sub : (ops1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- 17 operations, in order: the rest of the first window. -/
abbrev ops2a : List (HloOp τ sig (Elt F)) :=
  ( StableHlo.unary main_arg1 main_v34 ((extractStridedSlice S8x256x256x1 ![0, 0, 0, 0] · slices_S8x256x256x2_S8x256x256x1_0_0_0_0) : (⟨S8x256x256x2, .f32⟩ : BufTy).Contents (Elt F) → (⟨S8x256x256x1, .f32⟩ : BufTy).Contents (Elt F))
  :: StableHlo.reshape main_v34 main_v35 rfl shapeCasts_S8x256x256x1_S8x256x256
  :: StableHlo.unary main_arg1 main_v36 ((extractStridedSlice S8x256x256x1 ![0, 0, 0, 1] · slices_S8x256x256x2_S8x256x256x1_0_0_0_1) : (⟨S8x256x256x2, .f32⟩ : BufTy).Contents (Elt F) → (⟨S8x256x256x1, .f32⟩ : BufTy).Contents (Elt F))
  :: StableHlo.reshape main_v36 main_v37 rfl shapeCasts_S8x256x256x1_S8x256x256
  :: StableHlo.nullary main_v38 (iotaInDim S256 32 0)
  :: StableHlo.unary main_v38 main_v39 (broadcastInDim S1x256 ![1] bcast_S256_S1x256_1 : (⟨S256, .i32⟩ : BufTy).Contents (Elt F) → (⟨S1x256, .i32⟩ : BufTy).Contents (Elt F))
  :: StableHlo.unary main_arg2 main_v40 (broadcastInDim S8x1 ![0] bcast_S8_S8x1_0 : (⟨S8, .i32⟩ : BufTy).Contents (Elt F) → (⟨S8x1, .i32⟩ : BufTy).Contents (Elt F))
  :: StableHlo.unary main_v39 main_v41 (broadcastInDim S8x256 ![0, 1] bcast_S1x256_S8x256_0_1 : (⟨S1x256, .i32⟩ : BufTy).Contents (Elt F) → (⟨S8x256, .i32⟩ : BufTy).Contents (Elt F))
  :: StableHlo.unary main_v40 main_v42 (broadcastInDim S8x256 ![0, 1] bcast_S8x1_S8x256_0_1 : (⟨S8x1, .i32⟩ : BufTy).Contents (Elt F) → (⟨S8x256, .i32⟩ : BufTy).Contents (Elt F))
  :: StableHlo.binary main_v41 main_v42 main_v43 (cmpi .slt : (⟨S8x256, .i32⟩ : BufTy).Contents (Elt F) → (⟨S8x256, .i32⟩ : BufTy).Contents (Elt F) → (⟨S8x256, .i1⟩ : BufTy).Contents (Elt F))
  :: StableHlo.unary main_v43 main_v44 (broadcastInDim S8x256x1 ![0, 1] bcast_S8x256_S8x256x1_0_1 : (⟨S8x256, .i1⟩ : BufTy).Contents (Elt F) → (⟨S8x256x1, .i1⟩ : BufTy).Contents (Elt F))
  :: StableHlo.unary main_v43 main_v45 (broadcastInDim S8x1x256 ![0, 2] bcast_S8x256_S8x1x256_0_2 : (⟨S8x256, .i1⟩ : BufTy).Contents (Elt F) → (⟨S8x1x256, .i1⟩ : BufTy).Contents (Elt F))
  :: StableHlo.unary main_v44 main_v46 (broadcastInDim S8x256x256 ![0, 1, 2] bcast_S8x256x1_S8x256x256_0_1_2 : (⟨S8x256x1, .i1⟩ : BufTy).Contents (Elt F) → (⟨S8x256x256, .i1⟩ : BufTy).Contents (Elt F))
  :: StableHlo.unary main_v45 main_v47 (broadcastInDim S8x256x256 ![0, 1, 2] bcast_S8x1x256_S8x256x256_0_1_2 : (⟨S8x1x256, .i1⟩ : BufTy).Contents (Elt F) → (⟨S8x256x256, .i1⟩ : BufTy).Contents (Elt F))
  :: StableHlo.binary main_v46 main_v47 main_v48 (andi : (⟨S8x256x256, .i1⟩ : BufTy).Contents (Elt F) → (⟨S8x256x256, .i1⟩ : BufTy).Contents (Elt F) → (⟨S8x256x256, .i1⟩ : BufTy).Contents (Elt F))
  :: StableHlo.unary main_v48 main_v49 ((extui 32 · natLt_1_32) : (⟨S8x256x256, .i1⟩ : BufTy).Contents (Elt F) → (⟨S8x256x256, .i32⟩ : BufTy).Contents (Elt F))
  :: StableHlo.nullary main_c_8 (constantI S_ 32 0#32)
  :: [] )
/-- Each of them touches TensorCore references only. -/
theorem ops2a_sub : (ops2a : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., nullary_bufs_sub ..⟩

/-- 60 operations, in order: the second window. -/
abbrev ops2b : List (HloOp τ sig (Elt F)) :=
  ( StableHlo.unary main_c_8 main_v50 (broadcastInDim S8x256x256 ![] bcast_S_S8x256x256 : (⟨S_, .i32⟩ : BufTy).Contents (Elt F) → (⟨S8x256x256, .i32⟩ : BufTy).Contents (Elt F))
  :: StableHlo.binary main_v49 main_v50 main_v51 (cmpi .slt : (⟨S8x256x256, .i32⟩ : BufTy).Contents (Elt F) → (⟨S8x256x256, .i32⟩ : BufTy).Contents (Elt F) → (⟨S8x256x256, .i1⟩ : BufTy).Contents (Elt F))
  :: StableHlo.nullary main_c_9 (constantI S_ 32 2#32)
  :: StableHlo.unary main_c_9 main_v52 (broadcastInDim S8x256x256 ![] bcast_S_S8x256x256 : (⟨S_, .i32⟩ : BufTy).Contents (Elt F) → (⟨S8x256x256, .i32⟩ : BufTy).Contents (Elt F))
  :: StableHlo.binary main_v49 main_v52 main_v53 (addi : (⟨S8x256x256, .i32⟩ : BufTy).Contents (Elt F) → (⟨S8x256x256, .i32⟩ : BufTy).Contents (Elt F) → (⟨S8x256x256, .i32⟩ : BufTy).Contents (Elt F))
  :: StableHlo.ternary main_v51 main_v53 main_v49 main_v54 (select : (⟨S8x256x256, .i1⟩ : BufTy).Contents (Elt F) → (⟨S8x256x256, .i32⟩ : BufTy).Contents (Elt F) → (⟨S8x256x256, .i32⟩ : BufTy).Contents (Elt F) → (⟨S8x256x256, .i32⟩ : BufTy).Contents (Elt F))
  :: StableHlo.unary main_v54 main_v55 (broadcastInDim S8x256x256x1 ![0, 1, 2] bcast_S8x256x256_S8x256x256x1_0_1_2 : (⟨S8x256x256, .i32⟩ : BufTy).Contents (Elt F) → (⟨S8x256x256x1, .i32⟩ : BufTy).Contents (Elt F))
  :: StableHlo.binary main_arg7 main_v55 main_v56 ((fun x i => Host.gather gather_S2x64_S8x256x256x1_S8x256x256x64_3_0_n_n_0_3_164 x i) : (⟨S2x64, .f32⟩ : BufTy).Contents (Elt F) → (⟨S8x256x256x1, .i32⟩ : BufTy).Contents (Elt F) → (⟨S8x256x256x64, .f32⟩ : BufTy).Contents (Elt F))
  :: StableHlo.nullary main_c_10 (constantI S_ 32 0#32)
  :: StableHlo.unary main_c_10 main_v57 (broadcastInDim S8x256x256 ![] bcast_S_S8x256x256 : (⟨S_, .i32⟩ : BufTy).Contents (Elt F) → (⟨S8x256x256, .i32⟩ : BufTy).Contents (Elt F))
  :: StableHlo.binary main_v49 main_v57 main_v58 (cmpi .slt : (⟨S8x256x256, .i32⟩ : BufTy).Contents (Elt F) → (⟨S8x256x256, .i32⟩ : BufTy).Contents (Elt F) → (⟨S8x256x256, .i1⟩ : BufTy).Contents (Elt F))
  :: StableHlo.nullary main_c_11 (constantI S_ 32 2#32)
  :: StableHlo.unary main_c_11 main_v59 (broadcastInDim S8x256x256 ![] bcast_S_S8x256x256 : (⟨S_, .i32⟩ : BufTy).Contents (Elt F) → (⟨S8x256x256, .i32⟩ : BufTy).Contents (Elt F))
  :: StableHlo.binary main_v49 main_v59 main_v60 (addi : (⟨S8x256x256, .i32⟩ : BufTy).Contents (Elt F) → (⟨S8x256x256, .i32⟩ : BufTy).Contents (Elt F) → (⟨S8x256x256, .i32⟩ : BufTy).Contents (Elt F))
  :: StableHlo.ternary main_v58 main_v60 main_v49 main_v61 (select : (⟨S8x256x256, .i1⟩ : BufTy).Contents (Elt F) → (⟨S8x256x256, .i32⟩ : BufTy).Contents (Elt F) → (⟨S8x256x256, .i32⟩ : BufTy).Contents (Elt F) → (⟨S8x256x256, .i32⟩ : BufTy).Contents (Elt F))
  :: StableHlo.unary main_v61 main_v62 (broadcastInDim S8x256x256x1 ![0, 1, 2] bcast_S8x256x256_S8x256x256x1_0_1_2 : (⟨S8x256x256, .i32⟩ : BufTy).Contents (Elt F) → (⟨S8x256x256x1, .i32⟩ : BufTy).Contents (Elt F))
  :: StableHlo.binary main_arg6 main_v62 main_v63 ((fun x i => Host.gather gather_S2x64_S8x256x256x1_S8x256x256x64_3_0_n_n_0_3_164 x i) : (⟨S2x64, .f32⟩ : BufTy).Contents (Elt F) → (⟨S8x256x256x1, .i32⟩ : BufTy).Contents (Elt F) → (⟨S8x256x256x64, .f32⟩ : BufTy).Contents (Elt F))
  :: StableHlo.nullary main_c_12 (constantI S_ 32 0#32)
  :: StableHlo.unary main_c_12 main_v64 (broadcastInDim S8x256x256 ![] bcast_S_S8x256x256 : (⟨S_, .i32⟩ : BufTy).Contents (Elt F) → (⟨S8x256x256, .i32⟩ : BufTy).Contents (Elt F))
  :: StableHlo.binary main_v49 main_v64 main_v65 (cmpi .slt : (⟨S8x256x256, .i32⟩ : BufTy).Contents (Elt F) → (⟨S8x256x256, .i32⟩ : BufTy).Contents (Elt F) → (⟨S8x256x256, .i1⟩ : BufTy).Contents (Elt F))
  :: StableHlo.nullary main_c_13 (constantI S_ 32 2#32)
  :: StableHlo.unary main_c_13 main_v66 (broadcastInDim S8x256x256 ![] bcast_S_S8x256x256 : (⟨S_, .i32⟩ : BufTy).Contents (Elt F) → (⟨S8x256x256, .i32⟩ : BufTy).Contents (Elt F))
  :: StableHlo.binary main_v49 main_v66 main_v67 (addi : (⟨S8x256x256, .i32⟩ : BufTy).Contents (Elt F) → (⟨S8x256x256, .i32⟩ : BufTy).Contents (Elt F) → (⟨S8x256x256, .i32⟩ : BufTy).Contents (Elt F))
  :: StableHlo.ternary main_v65 main_v67 main_v49 main_v68 (select : (⟨S8x256x256, .i1⟩ : BufTy).Contents (Elt F) → (⟨S8x256x256, .i32⟩ : BufTy).Contents (Elt F) → (⟨S8x256x256, .i32⟩ : BufTy).Contents (Elt F) → (⟨S8x256x256, .i32⟩ : BufTy).Contents (Elt F))
  :: StableHlo.unary main_v68 main_v69 (broadcastInDim S8x256x256x1 ![0, 1, 2] bcast_S8x256x256_S8x256x256x1_0_1_2 : (⟨S8x256x256, .i32⟩ : BufTy).Contents (Elt F) → (⟨S8x256x256x1, .i32⟩ : BufTy).Contents (Elt F))
  :: StableHlo.binary main_arg9 main_v69 main_v70 ((fun x i => Host.gather gather_S2x64_S8x256x256x1_S8x256x256x64_3_0_n_n_0_3_164 x i) : (⟨S2x64, .f32⟩ : BufTy).Contents (Elt F) → (⟨S8x256x256x1, .i32⟩ : BufTy).Contents (Elt F) → (⟨S8x256x256x64, .f32⟩ : BufTy).Contents (Elt F))
  :: StableHlo.nullary main_c_14 (constantI S_ 32 0#32)
  :: StableHlo.unary main_c_14 main_v71 (broadcastInDim S8x256x256 ![] bcast_S_S8x256x256 : (⟨S_, .i32⟩ : BufTy).Contents (Elt F) → (⟨S8x256x256, .i32⟩ : BufTy).Contents (Elt F))
  :: StableHlo.binary main_v49 main_v71 main_v72 (cmpi .slt : (⟨S8x256x256, .i32⟩ : BufTy).Contents (Elt F) → (⟨S8x256x256, .i32⟩ : BufTy).Contents (Elt F) → (⟨S8x256x256, .i1⟩ : BufTy).Contents (Elt F))
  :: StableHlo.nullary main_c_15 (constantI S_ 32 2#32)
  :: StableHlo.unary main_c_15 main_v73 (broadcastInDim S8x256x256 ![] bcast_S_S8x256x256 : (⟨S_, .i32⟩ : BufTy).Contents (Elt F) → (⟨S8x256x256, .i32⟩ : BufTy).Contents (Elt F))
  :: StableHlo.binary main_v49 main_v73 main_v74 (addi : (⟨S8x256x256, .i32⟩ : BufTy).Contents (Elt F) → (⟨S8x256x256, .i32⟩ : BufTy).Contents (Elt F) → (⟨S8x256x256, .i32⟩ : BufTy).Contents (Elt F))
  :: StableHlo.ternary main_v72 main_v74 main_v49 main_v75 (select : (⟨S8x256x256, .i1⟩ : BufTy).Contents (Elt F) → (⟨S8x256x256, .i32⟩ : BufTy).Contents (Elt F) → (⟨S8x256x256, .i32⟩ : BufTy).Contents (Elt F) → (⟨S8x256x256, .i32⟩ : BufTy).Contents (Elt F))
  :: StableHlo.unary main_v75 main_v76 (broadcastInDim S8x256x256x1 ![0, 1, 2] bcast_S8x256x256_S8x256x256x1_0_1_2 : (⟨S8x256x256, .i32⟩ : BufTy).Contents (Elt F) → (⟨S8x256x256x1, .i32⟩ : BufTy).Contents (Elt F))
  :: StableHlo.binary main_arg8 main_v76 main_v77 ((fun x i => Host.gather gather_S2x64_S8x256x256x1_S8x256x256x64_3_0_n_n_0_3_164 x i) : (⟨S2x64, .f32⟩ : BufTy).Contents (Elt F) → (⟨S8x256x256x1, .i32⟩ : BufTy).Contents (Elt F) → (⟨S8x256x256x64, .f32⟩ : BufTy).Contents (Elt F))
  :: StableHlo.nullary main_cst (constant S_ .f32 0x00000000#32)
  :: StableHlo.unary main_cst main_v78 (broadcastInDim S8x256x256 ![] bcast_S_S8x256x256 : (⟨S_, .f32⟩ : BufTy).Contents (Elt F) → (⟨S8x256x256, .f32⟩ : BufTy).Contents (Elt F))
  :: StableHlo.binary main_v35 main_v78 main_v79 (subf : (⟨S8x256x256, .f32⟩ : BufTy).Contents (Elt F) → (⟨S8x256x256, .f32⟩ : BufTy).Contents (Elt F) → (⟨S8x256x256, .f32⟩ : BufTy).Contents (Elt F))
  :: StableHlo.unary main_v79 main_v80 (broadcastInDim S8x256x256x1 ![0, 1, 2] bcast_S8x256x256_S8x256x256x1_0_1_2 : (⟨S8x256x256, .f32⟩ : BufTy).Contents (Elt F) → (⟨S8x256x256x1, .f32⟩ : BufTy).Contents (Elt F))
  :: StableHlo.nullary main_cst_16 (constant S_ .f32 0x3F800000#32)
  :: StableHlo.unary main_cst_16 main_v81 (broadcastInDim S8x256x256 ![] bcast_S_S8x256x256 : (⟨S_, .f32⟩ : BufTy).Contents (Elt F) → (⟨S8x256x256, .f32⟩ : BufTy).Contents (Elt F))
  :: StableHlo.binary main_v81 main_v35 main_v82 (subf : (⟨S8x256x256, .f32⟩ : BufTy).Contents (Elt F) → (⟨S8x256x256, .f32⟩ : BufTy).Contents (Elt F) → (⟨S8x256x256, .f32⟩ : BufTy).Contents (Elt F))
  :: StableHlo.unary main_v82 main_v83 (broadcastInDim S8x256x256x1 ![0, 1, 2] bcast_S8x256x256_S8x256x256x1_0_1_2 : (⟨S8x256x256, .f32⟩ : BufTy).Contents (Elt F) → (⟨S8x256x256x1, .f32⟩ : BufTy).Contents (Elt F))
  :: StableHlo.nullary main_cst_17 (constant S_ .f32 0x00000000#32)
  :: StableHlo.unary main_cst_17 main_v84 (broadcastInDim S8x256x256 ![] bcast_S_S8x256x256 : (⟨S_, .f32⟩ : BufTy).Contents (Elt F) → (⟨S8x256x256, .f32⟩ : BufTy).Contents (Elt F))
  :: StableHlo.binary main_v37 main_v84 main_v85 (subf : (⟨S8x256x256, .f32⟩ : BufTy).Contents (Elt F) → (⟨S8x256x256, .f32⟩ : BufTy).Contents (Elt F) → (⟨S8x256x256, .f32⟩ : BufTy).Contents (Elt F))
  :: StableHlo.unary main_v85 main_v86 (broadcastInDim S8x256x256x1 ![0, 1, 2] bcast_S8x256x256_S8x256x256x1_0_1_2 : (⟨S8x256x256, .f32⟩ : BufTy).Contents (Elt F) → (⟨S8x256x256x1, .f32⟩ : BufTy).Contents (Elt F))
  :: StableHlo.nullary main_cst_18 (constant S_ .f32 0x3F800000#32)
  :: StableHlo.unary main_cst_18 main_v87 (broadcastInDim S8x256x256 ![] bcast_S_S8x256x256 : (⟨S_, .f32⟩ : BufTy).Contents (Elt F) → (⟨S8x256x256, .f32⟩ : BufTy).Contents (Elt F))
  :: StableHlo.binary main_v87 main_v37 main_v88 (subf : (⟨S8x256x256, .f32⟩ : BufTy).Contents (Elt F) → (⟨S8x256x256, .f32⟩ : BufTy).Contents (Elt F) → (⟨S8x256x256, .f32⟩ : BufTy).Contents (Elt F))
  :: StableHlo.unary main_v88 main_v89 (broadcastInDim S8x256x256x1 ![0, 1, 2] bcast_S8x256x256_S8x256x256x1_0_1_2 : (⟨S8x256x256, .f32⟩ : BufTy).Contents (Elt F) → (⟨S8x256x256x1, .f32⟩ : BufTy).Contents (Elt F))
  :: StableHlo.unary main_v83 main_v90 (broadcastInDim S8x256x256x64 ![0, 1, 2, 3] bcast_S8x256x256x1_S8x256x256x64_0_1_2_3 : (⟨S8x256x256x1, .f32⟩ : BufTy).Contents (Elt F) → (⟨S8x256x256x64, .f32⟩ : BufTy).Contents (Elt F))
  :: StableHlo.binary main_v56 main_v90 main_v91 (mulf : (⟨S8x256x256x64, .f32⟩ : BufTy).Contents (Elt F) → (⟨S8x256x256x64, .f32⟩ : BufTy).Contents (Elt F) → (⟨S8x256x256x64, .f32⟩ : BufTy).Contents (Elt F))
  :: StableHlo.unary main_v80 main_v92 (broadcastInDim S8x256x256x64 ![0, 1, 2, 3] bcast_S8x256x256x1_S8x256x256x64_0_1_2_3 : (⟨S8x256x256x1, .f32⟩ : BufTy).Contents (Elt F) → (⟨S8x256x256x64, .f32⟩ : BufTy).Contents (Elt F))
  :: StableHlo.binary main_v63 main_v92 main_v93 (mulf : (⟨S8x256x256x64, .f32⟩ : BufTy).Contents (Elt F) → (⟨S8x256x256x64, .f32⟩ : BufTy).Contents (Elt F) → (⟨S8x256x256x64, .f32⟩ : BufTy).Contents (Elt F))
  :: StableHlo.binary main_v91 main_v93 main_v94 (addf : (⟨S8x256x256x64, .f32⟩ : BufTy).Contents (Elt F) → (⟨S8x256x256x64, .f32⟩ : BufTy).Contents (Elt F) → (⟨S8x256x256x64, .f32⟩ : BufTy).Contents (Elt F))
  :: StableHlo.nullary main_cst_19 (constant S_ .f32 0x3F800000#32)
  :: StableHlo.unary main_cst_19 main_v95 (broadcastInDim S8x256x256x64 ![] bcast_S_S8x256x256x64 : (⟨S_, .f32⟩ : BufTy).Contents (Elt F) → (⟨S8x256x256x64, .f32⟩ : BufTy).Contents (Elt F))
  :: StableHlo.binary main_v94 main_v95 main_v96 (Host.divf : (⟨S8x256x256x64, .f32⟩ : BufTy).Contents (Elt F) → (⟨S8x256x256x64, .f32⟩ : BufTy).Contents (Elt F) → (⟨S8x256x256x64, .f32⟩ : BufTy).Contents (Elt F))
  :: StableHlo.unary main_v89 main_v97 (broadcastInDim S8x256x256x64 ![0, 1, 2, 3] bcast_S8x256x256x1_S8x256x256x64_0_1_2_3 : (⟨S8x256x256x1, .f32⟩ : BufTy).Contents (Elt F) → (⟨S8x256x256x64, .f32⟩ : BufTy).Contents (Elt F))
  :: [] )
/-- Each of them touches TensorCore references only. -/
theorem ops2b_sub : (ops2b : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., unary_bufs_sub ..⟩

/-- 8 operations, in order: the third window. -/
abbrev ops2c : List (HloOp τ sig (Elt F)) :=
  ( StableHlo.binary main_v70 main_v97 main_v98 (mulf : (⟨S8x256x256x64, .f32⟩ : BufTy).Contents (Elt F) → (⟨S8x256x256x64, .f32⟩ : BufTy).Contents (Elt F) → (⟨S8x256x256x64, .f32⟩ : BufTy).Contents (Elt F))
  :: StableHlo.unary main_v86 main_v99 (broadcastInDim S8x256x256x64 ![0, 1, 2, 3] bcast_S8x256x256x1_S8x256x256x64_0_1_2_3 : (⟨S8x256x256x1, .f32⟩ : BufTy).Contents (Elt F) → (⟨S8x256x256x64, .f32⟩ : BufTy).Contents (Elt F))
  :: StableHlo.binary main_v77 main_v99 main_v100 (mulf : (⟨S8x256x256x64, .f32⟩ : BufTy).Contents (Elt F) → (⟨S8x256x256x64, .f32⟩ : BufTy).Contents (Elt F) → (⟨S8x256x256x64, .f32⟩ : BufTy).Contents (Elt F))
  :: StableHlo.binary main_v98 main_v100 main_v101 (addf : (⟨S8x256x256x64, .f32⟩ : BufTy).Contents (Elt F) → (⟨S8x256x256x64, .f32⟩ : BufTy).Contents (Elt F) → (⟨S8x256x256x64, .f32⟩ : BufTy).Contents (Elt F))
  :: StableHlo.nullary main_cst_20 (constant S_ .f32 0x3F800000#32)
  :: StableHlo.unary main_cst_20 main_v102 (broadcastInDim S8x256x256x64 ![] bcast_S_S8x256x256x64 : (⟨S_, .f32⟩ : BufTy).Contents (Elt F) → (⟨S8x256x256x64, .f32⟩ : BufTy).Contents (Elt F))
  :: StableHlo.binary main_v101 main_v102 main_v103 (Host.divf : (⟨S8x256x256x64, .f32⟩ : BufTy).Contents (Elt F) → (⟨S8x256x256x64, .f32⟩ : BufTy).Contents (Elt F) → (⟨S8x256x256x64, .f32⟩ : BufTy).Contents (Elt F))
  :: StableHlo.binary main_v96 main_v103 main_v104 (addf : (⟨S8x256x256x64, .f32⟩ : BufTy).Contents (Elt F) → (⟨S8x256x256x64, .f32⟩ : BufTy).Contents (Elt F) → (⟨S8x256x256x64, .f32⟩ : BufTy).Contents (Elt F))
  :: [] )
/-- Each of them touches TensorCore references only. -/
theorem ops2c_sub : (ops2c : List (HloOp τ sig (Elt F))).Forall fun op => op.bufs ⊆ tcRefs τ sig :=
  ⟨binary_bufs_sub .., unary_bufs_sub .., binary_bufs_sub .., binary_bufs_sub .., nullary_bufs_sub .., unary_bufs_sub .., binary_bufs_sub .., binary_bufs_sub ..⟩

/-- The operations after the sum writing `main_v33`, to the last sum (writing `main_v104`): 85. -/
abbrev ops2 : List (HloOp τ sig (Elt F)) := ops2a ++ (ops2b ++ ops2c)

/-- All of @main's 148 host operations, in program order. -/
abbrev ops : List (HloOp τ sig (Elt F)) := ops1 ++ ops2

/-! ## @main is that straight line -/

/-- The first window is its 80 operations in a row: the call of `@remainder` unfolds to its body over the record
    `main_call0`, the call of `@_where` inside it to its one line over `main_call0_call0`, and a window's last
    statement, in tail position, is the same step as one followed by the empty line's return. -/
theorem part0_eq (c : Dev nD) : main_part0 (F := F) c = seq (ops1 ++ ops2a) := rfl
/-- The second window is its 60 operations in a row. -/
theorem part1_eq (c : Dev nD) : main_part1 (F := F) c = seq ops2b := rfl
/-- The third window is its 8 operations in a row, then the return. -/
theorem part2_eq (c : Dev nD) : main_part2 (F := F) c = seq ops2c := rfl

/-- @main runs its three windows in order, and lines run one after the other are their concatenation run as one
    (`seq_append`); re-bracketing the concatenation gives `ops`. -/
theorem main_eq (c : Dev nD) : main (F := F) c = seq ops := by
  have h : main (F := F) c = (main_part0 c >>= fun _ => main_part1 c >>= fun _ => main_part2 c) := rfl
  rw [h, part0_eq, part1_eq, part2_eq, ← seq_append, ← seq_append, List.append_assoc]

/-! ## The fold, in two halves -/

private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The buffers after all the operations are the buffers after `ops2` from what `ops1` leaves. -/
theorem after_ops (V : Valuation τ sig (Elt F)) : after ops V = after ops2 (after ops1 V) := after_app _ _ V

/-! ## The side conditions of the run -/

/-- The signature scopes no buffer … -/
theorem scopedRefs_eq : (Finset.univ.filter fun b : Ref sig .tc => b.isScoped) = ∅ := by decide
/-- … and no semaphore (it has none). -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_append.2 ⟨ops1_sub, List.forall_append.2 ⟨ops2a_sub, List.forall_append.2 ⟨ops2b_sub, ops2c_sub⟩⟩⟩

theorem ops1_fresh : (ops1 : List (HloOp τ sig (Elt F))).Forall fun op => op.fresh = ∅ := by
  simp only [List.Forall]; repeat' constructor
theorem ops2a_fresh : (ops2a : List (HloOp τ sig (Elt F))).Forall fun op => op.fresh = ∅ := by
  simp only [List.Forall]; repeat' constructor
theorem ops2b_fresh : (ops2b : List (HloOp τ sig (Elt F))).Forall fun op => op.fresh = ∅ := by
  simp only [List.Forall]; repeat' constructor
theorem ops2c_fresh : (ops2c : List (HloOp τ sig (Elt F))).Forall fun op => op.fresh = ∅ := by
  simp only [List.Forall]; repeat' constructor

/-- Every operation determines all it writes (none leaves a buffer at contents of the machine's choosing). -/
theorem ops_fresh : ∀ op ∈ (ops : List (HloOp τ sig (Elt F))), op.fresh = ∅ :=
  List.forall_iff_forall_mem.1
    (List.forall_append.2 ⟨ops1_fresh, List.forall_append.2 ⟨ops2a_fresh, List.forall_append.2 ⟨ops2b_fresh, ops2c_fresh⟩⟩⟩)

/-! ## The run -/

/-- At the compiled mesh, for any float values, from any memory with zero counters: every weakly fair execution of
    @main on the TensorCore terminates, and every final state has each buffer at the fold of the 148 operations'
    results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The arguments are read, never written -/

/-- Over a literal line: the buffer in question is none of the operations' single result buffers, reference by
    reference. -/
local macro "not_written" : tactic => `(tactic| (
  simp only [List.Forall]
  repeat' apply And.intro
  all_goals exact fun h => devRef_ne_of_ne (by decide) (Finset.mem_singleton.1 h)))

theorem arg0_kept (V : Valuation τ sig (Elt F)) : after ops V (main_arg0 : DevRef τ sig) = V (main_arg0 : DevRef τ sig) :=
  after_of_forall_not_mem (b := Proc.devRef .tc main_arg0) ops V (List.forall_iff_forall_mem.mp
    (List.forall_append.2 ⟨by not_written, List.forall_append.2 ⟨by not_written, List.forall_append.2 ⟨by not_written, by not_written⟩⟩⟩))
theorem arg1_kept (V : Valuation τ sig (Elt F)) : after ops V (main_arg1 : DevRef τ sig) = V (main_arg1 : DevRef τ sig) :=
  after_of_forall_not_mem (b := Proc.devRef .tc main_arg1) ops V (List.forall_iff_forall_mem.mp
    (List.forall_append.2 ⟨by not_written, List.forall_append.2 ⟨by not_written, List.forall_append.2 ⟨by not_written, by not_written⟩⟩⟩))
theorem arg2_kept (V : Valuation τ sig (Elt F)) : after ops V (main_arg2 : DevRef τ sig) = V (main_arg2 : DevRef τ sig) :=
  after_of_forall_not_mem (b := Proc.devRef .tc main_arg2) ops V (List.forall_iff_forall_mem.mp
    (List.forall_append.2 ⟨by not_written, List.forall_append.2 ⟨by not_written, List.forall_append.2 ⟨by not_written, by not_written⟩⟩⟩))
theorem arg3_kept (V : Valuation τ sig (Elt F)) : after ops V (main_arg3 : DevRef τ sig) = V (main_arg3 : DevRef τ sig) :=
  after_of_forall_not_mem (b := Proc.devRef .tc main_arg3) ops V (List.forall_iff_forall_mem.mp
    (List.forall_append.2 ⟨by not_written, List.forall_append.2 ⟨by not_written, List.forall_append.2 ⟨by not_written, by not_written⟩⟩⟩))
theorem arg4_kept (V : Valuation τ sig (Elt F)) : after ops V (main_arg4 : DevRef τ sig) = V (main_arg4 : DevRef τ sig) :=
  after_of_forall_not_mem (b := Proc.devRef .tc main_arg4) ops V (List.forall_iff_forall_mem.mp
    (List.forall_append.2 ⟨by not_written, List.forall_append.2 ⟨by not_written, List.forall_append.2 ⟨by not_written, by not_written⟩⟩⟩))
theorem arg5_kept (V : Valuation τ sig (Elt F)) : after ops V (main_arg5 : DevRef τ sig) = V (main_arg5 : DevRef τ sig) :=
  after_of_forall_not_mem (b := Proc.devRef .tc main_arg5) ops V (List.forall_iff_forall_mem.mp
    (List.forall_append.2 ⟨by not_written, List.forall_append.2 ⟨by not_written, List.forall_append.2 ⟨by not_written, by not_written⟩⟩⟩))
theorem arg6_kept (V : Valuation τ sig (Elt F)) : after ops V (main_arg6 : DevRef τ sig) = V (main_arg6 : DevRef τ sig) :=
  after_of_forall_not_mem (b := Proc.devRef .tc main_arg6) ops V (List.forall_iff_forall_mem.mp
    (List.forall_append.2 ⟨by not_written, List.forall_append.2 ⟨by not_written, List.forall_append.2 ⟨by not_written, by not_written⟩⟩⟩))
theorem arg7_kept (V : Valuation τ sig (Elt F)) : after ops V (main_arg7 : DevRef τ sig) = V (main_arg7 : DevRef τ sig) :=
  after_of_forall_not_mem (b := Proc.devRef .tc main_arg7) ops V (List.forall_iff_forall_mem.mp
    (List.forall_append.2 ⟨by not_written, List.forall_append.2 ⟨by not_written, List.forall_append.2 ⟨by not_written, by not_written⟩⟩⟩))
theorem arg8_kept (V : Valuation τ sig (Elt F)) : after ops V (main_arg8 : DevRef τ sig) = V (main_arg8 : DevRef τ sig) :=
  after_of_forall_not_mem (b := Proc.devRef .tc main_arg8) ops V (List.forall_iff_forall_mem.mp
    (List.forall_append.2 ⟨by not_written, List.forall_append.2 ⟨by not_written, List.forall_append.2 ⟨by not_written, by not_written⟩⟩⟩))
theorem arg9_kept (V : Valuation τ sig (Elt F)) : after ops V (main_arg9 : DevRef τ sig) = V (main_arg9 : DevRef τ sig) :=
  after_of_forall_not_mem (b := Proc.devRef .tc main_arg9) ops V (List.forall_iff_forall_mem.mp
    (List.forall_append.2 ⟨by not_written, List.forall_append.2 ⟨by not_written, List.forall_append.2 ⟨by not_written, by not_written⟩⟩⟩))

end Cert.ReferenceIdeal.RefRun

end
-- ==== Proof.LibFiniteInputs.lean ====
/-
  A precondition "every element of the input has absolute value below +∞", read back: the input's elements are real
  numbers.

  On the extended reals the absolute value max x (-x) is below ⊤ exactly when x is neither ⊤ nor ⊥, that is when x is
  a real number. The precondition is printed as the conjunction, over all elements, of the one-bit comparisons
  |x| < (the pattern 0x7F800000, which denotes ⊤); when that conjunction is 1 every comparison is 1.
-/
import Idealize.ShloMosaic.Lib.ReduceAll
import Idealize.ShloMosaic.PureOps.Ideal.Laws

noncomputable section

namespace Cert.FiniteInputs

open Idealize.ShloMosaic

/-- The single-precision pattern 0x7F800000 denotes +∞. -/
theorem ofBits_f32_inf : Ideal.ofBits .f32 0x7F800000#32 = ⊤ := by
  simp [Ideal.ofBits, Ideal.ieee]

/-- The absolute value of an extended real is below ⊤ exactly when it is a real number. -/
theorem abs_lt_top_iff (x : EReal) : max x (-x) < ⊤ ↔ ∃ r : ℝ, x = (r : EReal) := by
  induction x using EReal.rec with
  | bot =>
    constructor
    · intro h
      rw [EReal.neg_bot, max_eq_right bot_le] at h
      exact absurd h (lt_irrefl _)
    · rintro ⟨r, hr⟩
      exact absurd hr.symm (EReal.coe_ne_bot r)
  | top =>
    constructor
    · intro h
      rw [max_eq_left (le_top)] at h
      exact absurd h (lt_irrefl _)
    · rintro ⟨r, hr⟩
      exact absurd hr.symm (EReal.coe_ne_top r)
  | coe r =>
    constructor
    · intro _
      exact ⟨r, rfl⟩
    · intro _
      rw [← EReal.coe_neg]
      exact max_lt (EReal.coe_lt_top r) (EReal.coe_lt_top (-r))

/-- One element of the precondition: the comparison |x| < T with T = ⊤, as a one-bit word equal to 1, says x is real. -/
theorem real_of_cmp_abs_lt {x T : EReal} (hT : T = ⊤) (h : Ideal.cmp .olt (max x (-x)) T = 1#1) :
    ∃ r : ℝ, x = (r : EReal) := by
  subst hT
  refine (abs_lt_top_iff x).mp ?_
  by_contra hn
  simp [Ideal.cmp, hn] at h

/-- THE PRECONDITION READ BACK: when the conjunction over all elements of the comparisons |v i| < top i is 1, top being
    ⊤ everywhere, every element of v is a real number. -/
theorem all_real_of_all_finite {s t u : Shape} {axes : List (Fin s.rank)} [Subsingleton t.Idx]
    (v top : FVec Ideal s .f32) (htop : ∀ i, top i = ⊤) (init : u.Idx → BitVec 1) (h : s.ReducesTo axes t)
    (hu : 0 < u.numel) (j : t.Idx)
    (e : Host.reduce IntOp.andi (cmpf .olt (Host.absf v) top) init h hu j = 1#1) (i : s.Idx) :
    ∃ r : ℝ, v i = (r : EReal) := by
  have hi : Ideal.cmp .olt (max (v i) (-(v i))) (top i) = 1#1 := Host.reduce_andi_all _ init h hu j e i
  exact real_of_cmp_abs_lt (htop i) hi

end Cert.FiniteInputs
-- ==== Proof.Finite.lean ====
/-
  The precondition "every float input is finite", read back at the ideal instance (floats are extended reals).

  The precondition is a one-bit word: the conjunction, over the eight float inputs, of "every element x of this input
  satisfies |x| < +∞", each of these being itself the conjunction over all elements of the one-bit comparisons
  |x| < (the pattern 0x7F800000, which denotes ⊤). A conjunction of one-bit words is 1 only when every word in it is 1,
  so the hypothesis "the precondition is 1" gives every single comparison |x| < ⊤; and on the extended reals
  |x| = max x (-x) is below ⊤ exactly when x is neither ⊤ nor ⊥, that is when x is a real number. Hence every element of
  every float input is a real number; in particular the four 2×64 embedding tables hold real numbers.
-/
import proofs.«158873_j60696477827085_1_alg».proof.Defs
import proofs.«158873_j60696477827085_1_alg».proof.Proof.Gen.Pre_finite_inputs
import proofs.«158873_j60696477827085_1_alg».proof.Proof.LibFiniteInputs

noncomputable section

namespace Cert.Proof.Finite

open Idealize.ShloMosaic Idealize.SL.Sem

/-- A shape of rank 0 has exactly one index (the empty tuple of coordinates). -/
instance : Subsingleton Cert.Pre_finite_inputs.S_.Idx := ⟨fun a b => funext fun d => d.elim0⟩

/-- ONE CONJUNCT OF THE PRECONDITION, for an input `v` of any shape: the conjunction over all elements of the comparisons
    |v i| < T, where T is the scalar with pattern 0x7F800000 spread over the shape (so T is ⊤ at every index), is 1;
    then every element of `v` is a real number. -/
theorem real_of_conjunct {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (v : FVec Ideal s .f32) (j : Cert.Pre_finite_inputs.S_.Idx)
    (e : Host.reduce IntOp.andi
          (cmpf .olt (Host.absf v)
            (broadcastInDim s ![] hb (constant (F := Ideal) Cert.Pre_finite_inputs.S_ .f32 0x7F800000#32)))
          (constantI Cert.Pre_finite_inputs.S_ 1 1#1) hr hu j = 1#1) (i : s.Idx) :
    ∃ r : ℝ, v i = (r : EReal) :=
  Cert.FiniteInputs.all_real_of_all_finite v _ (fun _ => Cert.FiniteInputs.ofBits_f32_inf) _ hr hu j e i

/-- THE WHOLE PRECONDITION READ BACK: every element of each of the eight float inputs is a real number. The
    precondition's value at its one index is the conjunction (((((((a₁ ∧ a₃) ∧ a₄) ∧ a₅) ∧ a₆) ∧ a₇) ∧ a₈) ∧ a₉) of the
    eight per-input words; it is 1, so each aₖ is 1, and `real_of_conjunct` reads each aₖ. -/
theorem inputs_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i : Cert.KernelIdeal.S8x256x256x2.Idx, ∃ r : ℝ, (m ((c.tc : Thread Cert.KernelIdeal.nD Cert.KernelIdeal.τ).loc Cert.KernelIdeal.main_arg1) : FVec Ideal Cert.KernelIdeal.S8x256x256x2 .f32) i = (r : EReal))
    ∧ (∀ i : Cert.KernelIdeal.S169x64.Idx, ∃ r : ℝ, (m ((c.tc : Thread Cert.KernelIdeal.nD Cert.KernelIdeal.τ).loc Cert.KernelIdeal.main_arg3) : FVec Ideal Cert.KernelIdeal.S169x64 .f32) i = (r : EReal))
    ∧ (∀ i : Cert.KernelIdeal.S50000x64.Idx, ∃ r : ℝ, (m ((c.tc : Thread Cert.KernelIdeal.nD Cert.KernelIdeal.τ).loc Cert.KernelIdeal.main_arg4) : FVec Ideal Cert.KernelIdeal.S50000x64 .f32) i = (r : EReal))
    ∧ (∀ i : Cert.KernelIdeal.S10000x64.Idx, ∃ r : ℝ, (m ((c.tc : Thread Cert.KernelIdeal.nD Cert.KernelIdeal.τ).loc Cert.KernelIdeal.main_arg5) : FVec Ideal Cert.KernelIdeal.S10000x64 .f32) i = (r : EReal))
    ∧ (∀ i : Cert.KernelIdeal.S2x64.Idx, ∃ r : ℝ, (m ((c.tc : Thread Cert.KernelIdeal.nD Cert.KernelIdeal.τ).loc Cert.KernelIdeal.main_arg6) : FVec Ideal Cert.KernelIdeal.S2x64 .f32) i = (r : EReal))
    ∧ (∀ i : Cert.KernelIdeal.S2x64.Idx, ∃ r : ℝ, (m ((c.tc : Thread Cert.KernelIdeal.nD Cert.KernelIdeal.τ).loc Cert.KernelIdeal.main_arg7) : FVec Ideal Cert.KernelIdeal.S2x64 .f32) i = (r : EReal))
    ∧ (∀ i : Cert.KernelIdeal.S2x64.Idx, ∃ r : ℝ, (m ((c.tc : Thread Cert.KernelIdeal.nD Cert.KernelIdeal.τ).loc Cert.KernelIdeal.main_arg8) : FVec Ideal Cert.KernelIdeal.S2x64 .f32) i = (r : EReal))
    ∧ (∀ i : Cert.KernelIdeal.S2x64.Idx, ∃ r : ℝ, (m ((c.tc : Thread Cert.KernelIdeal.nD Cert.KernelIdeal.τ).loc Cert.KernelIdeal.main_arg9) : FVec Ideal Cert.KernelIdeal.S2x64 .f32) i = (r : EReal)) := by
  have h := congrFun (hpre c) (fun a => a.elim0)
  dsimp only [Cert.Pre_finite_inputs.fn, Cert.Pre_finite_inputs.fn_part1, Cert.Pre_finite_inputs.fn_part2, andi] at h
  simp only [IntOp.andi_eq_one] at h
  obtain ⟨⟨⟨⟨⟨⟨⟨h1, h3⟩, h4⟩, h5⟩, h6⟩, h7⟩, h8⟩, h9⟩ := h
  exact ⟨real_of_conjunct _ _ _ _ _ h1, real_of_conjunct _ _ _ _ _ h3, real_of_conjunct _ _ _ _ _ h4,
    real_of_conjunct _ _ _ _ _ h5, real_of_conjunct _ _ _ _ _ h6, real_of_conjunct _ _ _ _ _ h7,
    real_of_conjunct _ _ _ _ _ h8, real_of_conjunct _ _ _ _ _ h9⟩

/-- The four 2×64 embedding tables (inputs 6, 7, 8, 9) hold real numbers. -/
theorem tables_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i : Cert.KernelIdeal.S2x64.Idx, ∃ r : ℝ, (m ((c.tc : Thread Cert.KernelIdeal.nD Cert.KernelIdeal.τ).loc Cert.KernelIdeal.main_arg6) : FVec Ideal Cert.KernelIdeal.S2x64 .f32) i = (r : EReal))
    ∧ (∀ i : Cert.KernelIdeal.S2x64.Idx, ∃ r : ℝ, (m ((c.tc : Thread Cert.KernelIdeal.nD Cert.KernelIdeal.τ).loc Cert.KernelIdeal.main_arg7) : FVec Ideal Cert.KernelIdeal.S2x64 .f32) i = (r : EReal))
    ∧ (∀ i : Cert.KernelIdeal.S2x64.Idx, ∃ r : ℝ, (m ((c.tc : Thread Cert.KernelIdeal.nD Cert.KernelIdeal.τ).loc Cert.KernelIdeal.main_arg8) : FVec Ideal Cert.KernelIdeal.S2x64 .f32) i = (r : EReal))
    ∧ (∀ i : Cert.KernelIdeal.S2x64.Idx, ∃ r : ℝ, (m ((c.tc : Thread Cert.KernelIdeal.nD Cert.KernelIdeal.τ).loc Cert.KernelIdeal.main_arg9) : FVec Ideal Cert.KernelIdeal.S2x64 .f32) i = (r : EReal)) :=
  (inputs_real m hpre c).2.2.2.2

end Cert.Proof.Finite
-- ==== Proof.LibMaskLayout.lean ====
/-
  Host-side layout operations of rank 3 and 4, read at indices written by coordinates.

  A mask over pairs (p, q) built from one row of flags is laid out by broadcasts: the flags [a, b] get a trailing unit
  axis ([a, b, 1]) or a middle one ([a, 1, c]), and each is then laid over the full [a, b, c]. A value over [a, b, c]
  gets a trailing unit axis ([a, b, c, 1]) and is laid along a last axis of any length. A plane is cut out of the last
  axis of [a, b, c, n] and its unit axis dropped. A table [N, C] is looked up row by row at row numbers stored as
  [a, b, c, 1]: the element at (i, j, k, l) is the table's at the row number read signed and kept inside [0, N − 1],
  column l. Each lemma reads one such operation at an index (i, j, k[, l]) as its operand at the index it came from.
  All are generic in the extents.
-/
import Idealize.ShloMosaic.Lib.Pipeline.Value
import Idealize.ShloMosaic.Lib.ValueIdx

noncomputable section

namespace Cert.MaskLayout

open Idealize.ShloMosaic Idealize.ShloMosaic.ValueIdx

variable {α : Type}

/-- A coordinate of an axis of extent 1 is 0; of any other extent it is itself. -/
theorem val_ite {n : Nat} (i : Fin n) : i.val = if n = 1 then 0 else i.val := by
  split
  · next h => have := i.isLt; omega
  · rfl

/-- [a, b] with a trailing unit axis: (i, j, 0) reads (i, j). -/
theorem bcast_ab_ab1_apply {a b : Nat}
    (h : (⟨2, ![a, b]⟩ : Shape).BroadcastsInDim ⟨3, ![a, b, 1]⟩ (![0, 1] : Fin 2 → Fin 3))
    (x : (⟨2, ![a, b]⟩ : Shape).Idx → α) (i : Fin a) (j : Fin b) (z : Fin 1) :
    broadcastInDim ⟨3, ![a, b, 1]⟩ (![0, 1] : Fin 2 → Fin 3) h x (ix3 i j z) = x (ix2 i j) :=
  broadcastInDim_apply _ _ _ _ _ (fun ax => by
    match ax with
    | ⟨0, _⟩ => exact val_ite i
    | ⟨1, _⟩ => exact val_ite j)

/-- [a, c] with a middle unit axis: (i, 0, k) reads (i, k). -/
theorem bcast_ac_a1c_apply {a c : Nat}
    (h : (⟨2, ![a, c]⟩ : Shape).BroadcastsInDim ⟨3, ![a, 1, c]⟩ (![0, 2] : Fin 2 → Fin 3))
    (x : (⟨2, ![a, c]⟩ : Shape).Idx → α) (i : Fin a) (z : Fin 1) (k : Fin c) :
    broadcastInDim ⟨3, ![a, 1, c]⟩ (![0, 2] : Fin 2 → Fin 3) h x (ix3 i z k) = x (ix2 i k) :=
  broadcastInDim_apply _ _ _ _ _ (fun ax => by
    match ax with
    | ⟨0, _⟩ => exact val_ite i
    | ⟨1, _⟩ => exact val_ite k)

/-- [a, b, 1] laid along a third axis: (i, j, k) reads (i, j, 0). -/
theorem bcast_ab1_abc_apply {a b c : Nat}
    (h : (⟨3, ![a, b, 1]⟩ : Shape).BroadcastsInDim ⟨3, ![a, b, c]⟩ (![0, 1, 2] : Fin 3 → Fin 3))
    (x : (⟨3, ![a, b, 1]⟩ : Shape).Idx → α) (i : Fin a) (j : Fin b) (k : Fin c) :
    broadcastInDim ⟨3, ![a, b, c]⟩ (![0, 1, 2] : Fin 3 → Fin 3) h x (ix3 i j k) = x (ix3 i j (0 : Fin 1)) :=
  broadcastInDim_apply _ _ _ _ _ (fun ax => by
    match ax with
    | ⟨0, _⟩ => exact val_ite i
    | ⟨1, _⟩ => exact val_ite j
    | ⟨2, _⟩ => exact (if_pos rfl).symm)

/-- [a, 1, c] laid along the middle axis: (i, j, k) reads (i, 0, k). -/
theorem bcast_a1c_abc_apply {a b c : Nat}
    (h : (⟨3, ![a, 1, c]⟩ : Shape).BroadcastsInDim ⟨3, ![a, b, c]⟩ (![0, 1, 2] : Fin 3 → Fin 3))
    (x : (⟨3, ![a, 1, c]⟩ : Shape).Idx → α) (i : Fin a) (j : Fin b) (k : Fin c) :
    broadcastInDim ⟨3, ![a, b, c]⟩ (![0, 1, 2] : Fin 3 → Fin 3) h x (ix3 i j k) = x (ix3 i (0 : Fin 1) k) :=
  broadcastInDim_apply _ _ _ _ _ (fun ax => by
    match ax with
    | ⟨0, _⟩ => exact val_ite i
    | ⟨1, _⟩ => exact (if_pos rfl).symm
    | ⟨2, _⟩ => exact val_ite k)

/-- [a, b, c] with a trailing unit axis: (i, j, k, 0) reads (i, j, k). -/
theorem bcast_abc_abc1_apply {a b c : Nat}
    (h : (⟨3, ![a, b, c]⟩ : Shape).BroadcastsInDim ⟨4, ![a, b, c, 1]⟩ (![0, 1, 2] : Fin 3 → Fin 4))
    (x : (⟨3, ![a, b, c]⟩ : Shape).Idx → α) (i : Fin a) (j : Fin b) (k : Fin c) (z : Fin 1) :
    broadcastInDim ⟨4, ![a, b, c, 1]⟩ (![0, 1, 2] : Fin 3 → Fin 4) h x (ix4 i j k z) = x (ix3 i j k) :=
  broadcastInDim_apply _ _ _ _ _ (fun ax => by
    match ax with
    | ⟨0, _⟩ => exact val_ite i
    | ⟨1, _⟩ => exact val_ite j
    | ⟨2, _⟩ => exact val_ite k)

/-- [a, b, c, 1] laid along a last axis: (i, j, k, l) reads (i, j, k, 0). -/
theorem bcast_abc1_abcn_apply {a b c n : Nat}
    (h : (⟨4, ![a, b, c, 1]⟩ : Shape).BroadcastsInDim ⟨4, ![a, b, c, n]⟩ (![0, 1, 2, 3] : Fin 4 → Fin 4))
    (x : (⟨4, ![a, b, c, 1]⟩ : Shape).Idx → α) (i : Fin a) (j : Fin b) (k : Fin c) (l : Fin n) :
    broadcastInDim ⟨4, ![a, b, c, n]⟩ (![0, 1, 2, 3] : Fin 4 → Fin 4) h x (ix4 i j k l) = x (ix4 i j k (0 : Fin 1)) :=
  broadcastInDim_apply _ _ _ _ _ (fun ax => by
    match ax with
    | ⟨0, _⟩ => exact val_ite i
    | ⟨1, _⟩ => exact val_ite j
    | ⟨2, _⟩ => exact val_ite k
    | ⟨3, _⟩ => exact (if_pos rfl).symm)

/-- A scalar laid over any shape reads the scalar everywhere. -/
theorem bcast_scalar_apply {t : Shape}
    (h : (⟨0, ![]⟩ : Shape).BroadcastsInDim t (![] : Fin 0 → Fin t.rank))
    (x : (⟨0, ![]⟩ : Shape).Idx → α) (j : t.Idx) :
    broadcastInDim t (![] : Fin 0 → Fin t.rank) h x j = x ix0 :=
  broadcastInDim_apply _ _ _ _ _ (fun ax => ax.elim0)

/-- The plane o of the last axis of [a, b, c, n]: (i, j, k, 0) reads (i, j, k, o). -/
theorem slice4_last_apply {a b c n : Nat} (o : Nat) (ho : o < n)
    (h : (⟨4, ![a, b, c, n]⟩ : Shape).Slices ![0, 0, 0, o] ⟨4, ![a, b, c, 1]⟩)
    (x : (⟨4, ![a, b, c, n]⟩ : Shape).Idx → α) (i : Fin a) (j : Fin b) (k : Fin c) (z : Fin 1) :
    extractStridedSlice ⟨4, ![a, b, c, 1]⟩ ![0, 0, 0, o] x h (ix4 i j k z) = x (ix4 i j k (⟨o, ho⟩ : Fin n)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => show o = o + z.val; have := z.isLt; omega)

/-- A trailing unit axis dropped: (i, j, k) of [a, b, c] reads (i, j, k, 0) of [a, b, c, 1]. -/
theorem shapeCast_abc1_abc_apply {a b c : Nat}
    (h : (⟨4, ![a, b, c, 1]⟩ : Shape).ShapeCasts ⟨3, ![a, b, c]⟩)
    (x : (⟨4, ![a, b, c, 1]⟩ : Shape).Idx → α) (i : Fin a) (j : Fin b) (k : Fin c) :
    shapeCast ⟨3, ![a, b, c]⟩ x h (ix3 i j k) = x (ix4 i j k (0 : Fin 1)) :=
  shapeCast_apply _ _ _ _ (by
    rw [Shape.rowMajor_val_four, Shape.rowMajor_val_three]
    show ((i.val * b + j.val) * c + k.val) * 1 + 0 = (i.val * b + j.val) * c + k.val
    omega)

/-! ## Rows of a table looked up at row numbers stored as [a, b, c, 1] -/

/-- The dimension numbers of that lookup (what `table[numbers]` lowers to for a matrix and a rank-3 array of row
    numbers): the row axis collapsed, the column axis kept as the result's last axis. -/
abbrev rowsDims (N C a b c : Nat)
    (wf : GatherDims.WF ⟨2, ![N, C]⟩ ⟨4, ![a, b, c, 1]⟩ ⟨4, ![a, b, c, C]⟩ [3] [0] [] [0] [] 3 ![1, C]) :
    GatherDims ⟨2, ![N, C]⟩ ⟨4, ![a, b, c, 1]⟩ ⟨4, ![a, b, c, C]⟩ where
  offsetDims := [3]
  collapsedSliceDims := [0]
  operandBatchingDims := []
  startIndicesBatchingDims := []
  startIndexMap := [0]
  indexVectorDim := 3
  sliceSizes := ![1, C]
  wf := wf

/-- THE LOOKUP READ AT (i, j, k, l): the table at the row number stored at (i, j, k, 0), read signed and kept inside
    [0, N − 1], column l. -/
theorem gather_rows_apply {N C a b c w : Nat} (hN : 0 < N)
    (wf : GatherDims.WF ⟨2, ![N, C]⟩ ⟨4, ![a, b, c, 1]⟩ ⟨4, ![a, b, c, C]⟩ [3] [0] [] [0] [] 3 ![1, C])
    (x : (⟨2, ![N, C]⟩ : Shape).Idx → α) (idx : IVec ⟨4, ![a, b, c, 1]⟩ w)
    (i : Fin a) (j : Fin b) (k : Fin c) (l : Fin C) :
    Host.gather (rowsDims N C a b c wf) x idx (ix4 i j k l)
      = x (ix2 (⟨min (idx (ix4 i j k (0 : Fin 1))).toInt.toNat (N - 1), by omega⟩ : Fin N) l) := by
  unfold Host.gather
  congr 1
  funext ax
  refine Fin.ext ?_
  match ax with
  | ⟨0, _⟩ =>
    show (rowsDims N C a b c wf).start (ix4 i j k l) idx 0 + (rowsDims N C a b c wf).batchCoord (ix4 i j k l) 0
        + (rowsDims N C a b c wf).offCoord (ix4 i j k l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C a b c wf).startIndexMap from List.mem_singleton.mpr rfl)]
    have hsi : (rowsDims N C a b c wf).siIdx (ix4 i j k l) ⟨List.idxOf (0 : Fin 2) (rowsDims N C a b c wf).startIndexMap,
        List.idxOf_lt_length_iff.2 (List.mem_singleton.mpr rfl)⟩ = ix4 i j k (0 : Fin 1) := by
      funext bx; refine Fin.ext ?_
      match bx with
      | ⟨0, _⟩ => rfl
      | ⟨1, _⟩ => rfl
      | ⟨2, _⟩ => rfl
      | ⟨3, _⟩ => rfl
    rw [hsi]
    rfl
  | ⟨1, _⟩ =>
    show (rowsDims N C a b c wf).start (ix4 i j k l) idx 1 + (rowsDims N C a b c wf).batchCoord (ix4 i j k l) 1
        + (rowsDims N C a b c wf).offCoord (ix4 i j k l) 1 = _
    rw [GatherDims.batchCoord_eq_zero _ _ _ List.not_mem_nil]
    unfold GatherDims.start
    rw [dif_neg (show (1 : Fin 2) ∉ (rowsDims N C a b c wf).startIndexMap from (by decide : (1 : Fin 2) ∉ [(0 : Fin 2)]))]
    simp only [Nat.add_zero, Nat.zero_add]
    rfl

end Cert.MaskLayout

end
-- ==== Proof.RefTail.lean ====
/-
  The reference's second result, read at an index.

  From the flags valid(b, p) (one bit per batch and position) the reference forms the pair mask
  valid(b, p) AND valid(b, q), widens it to a 32-bit row number (0 or 1), and looks each of the four two-row tables up
  at that row number; it cuts the two planes ds, dt out of the distance array, forms
  (e_lo · (1 − d) + e_hi · (d − 0)) / 1 for the spatial pair of tables with d = ds and for the temporal pair with
  d = dt, and adds the two. The definitions below spell those stages as the program's own operations, so that the
  program's straight line is an instance of them; each lemma reads one stage at an index (b, p, q[, f]).
-/
import proofs.«158873_j60696477827085_1_alg».proof.Proof.Gen.ReferenceIdeal
import proofs.«158873_j60696477827085_1_alg».proof.Proof.LibMaskLayout
import Idealize.ShloMosaic.Lib.ValueIdx
import Idealize.ShloMosaic.PureOps.Ideal.Laws

noncomputable section

namespace Cert.Proof.RefTail

open Cert.ReferenceIdeal Cert.ReferenceIdeal.Facts₀ Idealize.ShloMosaic Idealize.ShloMosaic.ValueIdx Cert.MaskLayout

/-- The pair mask as a 32-bit row number: valid(b, p) AND valid(b, q), widened. -/
def mask (vld : IVec S8x256 1) : IVec S8x256x256 32 :=
  extui 32 (andi
      (broadcastInDim S8x256x256 ![0, 1, 2] bcast_S8x256x1_S8x256x256_0_1_2 (broadcastInDim S8x256x1 ![0, 1] bcast_S8x256_S8x256x1_0_1 vld))
      (broadcastInDim S8x256x256 ![0, 1, 2] bcast_S8x1x256_S8x256x256_0_1_2 (broadcastInDim S8x1x256 ![0, 2] bcast_S8x256_S8x1x256_0_2 vld)))
    natLt_1_32

/-- A two-row table looked up at the row numbers k: a negative number is first moved up by the table's two rows. -/
def rows (tbl : FVec Ideal S2x64 .f32) (k : IVec S8x256x256 32) : FVec Ideal S8x256x256x64 .f32 :=
  Host.gather gather_S2x64_S8x256x256x1_S8x256x256x64_3_0_n_n_0_3_164 tbl
    (broadcastInDim S8x256x256x1 ![0, 1, 2] bcast_S8x256x256_S8x256x256x1_0_1_2
      (select (cmpi .slt k (broadcastInDim S8x256x256 ![] bcast_S_S8x256x256 (constantI S_ 32 0#32)))
        (addi k (broadcastInDim S8x256x256 ![] bcast_S_S8x256x256 (constantI S_ 32 2#32))) k))

/-- The two planes of the distance array. -/
def plane0 (a1 : FVec Ideal S8x256x256x2 .f32) : FVec Ideal S8x256x256 .f32 :=
  shapeCast S8x256x256 (extractStridedSlice S8x256x256x1 ![0, 0, 0, 0] a1 slices_S8x256x256x2_S8x256x256x1_0_0_0_0) shapeCasts_S8x256x256x1_S8x256x256
def plane1 (a1 : FVec Ideal S8x256x256x2 .f32) : FVec Ideal S8x256x256 .f32 :=
  shapeCast S8x256x256 (extractStridedSlice S8x256x256x1 ![0, 0, 0, 1] a1 slices_S8x256x256x2_S8x256x256x1_0_0_0_1) shapeCasts_S8x256x256x1_S8x256x256

/-- One half of the result: (lo · (1 − d) + hi · (d − 0)) / 1, the plane d laid along the feature axis. -/
def side (lo hi : FVec Ideal S8x256x256x64 .f32) (d : FVec Ideal S8x256x256 .f32) : FVec Ideal S8x256x256x64 .f32 :=
  Host.divf
    (addf
      (mulf lo (broadcastInDim S8x256x256x64 ![0, 1, 2, 3] bcast_S8x256x256x1_S8x256x256x64_0_1_2_3
        (broadcastInDim S8x256x256x1 ![0, 1, 2] bcast_S8x256x256_S8x256x256x1_0_1_2
          (subf (broadcastInDim S8x256x256 ![] bcast_S_S8x256x256 (constant (F := Ideal) S_ .f32 0x3F800000#32)) d))))
      (mulf hi (broadcastInDim S8x256x256x64 ![0, 1, 2, 3] bcast_S8x256x256x1_S8x256x256x64_0_1_2_3
        (broadcastInDim S8x256x256x1 ![0, 1, 2] bcast_S8x256x256_S8x256x256x1_0_1_2
          (subf d (broadcastInDim S8x256x256 ![] bcast_S_S8x256x256 (constant (F := Ideal) S_ .f32 0x00000000#32)))))))
    (broadcastInDim S8x256x256x64 ![] bcast_S_S8x256x256x64 (constant (F := Ideal) S_ .f32 0x3F800000#32))

/-- The reference's second result from the distance array, the flags and the four tables (in the order the program
    looks them up: spatial lower, spatial upper, temporal lower, temporal upper). -/
def tail (a1 : FVec Ideal S8x256x256x2 .f32) (vld : IVec S8x256 1) (tsl tsu ttl ttu : FVec Ideal S2x64 .f32) :
    FVec Ideal S8x256x256x64 .f32 :=
  addf (side (rows tsl (mask vld)) (rows tsu (mask vld)) (plane0 a1)) (side (rows ttl (mask vld)) (rows ttu (mask vld)) (plane1 a1))

/-! ## Each stage at an index -/

theorem mask_apply (vld : IVec S8x256 1) (b : Fin 8) (p q : Fin 256) :
    mask vld (ix3 b p q) = (vld (ix2 b p) &&& vld (ix2 b q)).setWidth 32 := by
  show ((broadcastInDim S8x256x256 ![0, 1, 2] bcast_S8x256x1_S8x256x256_0_1_2 (broadcastInDim S8x256x1 ![0, 1] bcast_S8x256_S8x256x1_0_1 vld)) (ix3 b p q)
      &&& (broadcastInDim S8x256x256 ![0, 1, 2] bcast_S8x1x256_S8x256x256_0_1_2 (broadcastInDim S8x1x256 ![0, 2] bcast_S8x256_S8x1x256_0_2 vld)) (ix3 b p q)).setWidth 32 = _
  rw [bcast_ab1_abc_apply, bcast_ab_ab1_apply, bcast_a1c_abc_apply, bcast_ac_a1c_apply]

theorem plane0_apply (a1 : FVec Ideal S8x256x256x2 .f32) (b : Fin 8) (p q : Fin 256) :
    plane0 a1 (ix3 b p q) = a1 (ix4 b p q (0 : Fin 2)) := by
  unfold plane0
  rw [shapeCast_abc1_abc_apply, slice4_last_apply 0 (by decide)]
  rfl

theorem plane1_apply (a1 : FVec Ideal S8x256x256x2 .f32) (b : Fin 8) (p q : Fin 256) :
    plane1 a1 (ix3 b p q) = a1 (ix4 b p q (1 : Fin 2)) := by
  unfold plane1
  rw [shapeCast_abc1_abc_apply, slice4_last_apply 1 (by decide)]
  rfl

/-- The row the lookup lands on, from the row number stored at (b, p, q). -/
abbrev rowOf (k : BitVec 32) : Fin 2 :=
  ⟨min (Scalar.select (IntOp.cmpi .slt k 0#32) (IntOp.addi k 2#32) k).toInt.toNat (2 - 1), by omega⟩

theorem rows_apply (tbl : FVec Ideal S2x64 .f32) (k : IVec S8x256x256 32) (b : Fin 8) (p q : Fin 256) (f : Fin 64) :
    rows tbl k (ix4 b p q f) = tbl (ix2 (rowOf (k (ix3 b p q))) f) := by
  unfold rows
  have e : gather_S2x64_S8x256x256x1_S8x256x256x64_3_0_n_n_0_3_164
      = rowsDims 2 64 8 256 256 gather_S2x64_S8x256x256x1_S8x256x256x64_3_0_n_n_0_3_164_wf := rfl
  rw [e, gather_rows_apply (by decide)]
  refine congrArg tbl (congrArg (fun r => ix2 r f) (Fin.ext ?_))
  show min ((broadcastInDim S8x256x256x1 ![0, 1, 2] bcast_S8x256x256_S8x256x256x1_0_1_2
        (select (cmpi .slt k (broadcastInDim S8x256x256 ![] bcast_S_S8x256x256 (constantI S_ 32 0#32)))
          (addi k (broadcastInDim S8x256x256 ![] bcast_S_S8x256x256 (constantI S_ 32 2#32))) k)) (ix4 b p q (0 : Fin 1))).toInt.toNat (2 - 1)
      = min (Scalar.select (IntOp.cmpi .slt (k (ix3 b p q)) 0#32) (IntOp.addi (k (ix3 b p q)) 2#32) (k (ix3 b p q))).toInt.toNat (2 - 1)
  rw [bcast_abc_abc1_apply]
  show min (Scalar.select (IntOp.cmpi .slt (k (ix3 b p q)) ((broadcastInDim S8x256x256 ![] bcast_S_S8x256x256 (constantI S_ 32 0#32)) (ix3 b p q)))
        (IntOp.addi (k (ix3 b p q)) ((broadcastInDim S8x256x256 ![] bcast_S_S8x256x256 (constantI S_ 32 2#32)) (ix3 b p q))) (k (ix3 b p q))).toInt.toNat (2 - 1) = _
  rw [bcast_scalar_apply, bcast_scalar_apply]
  rfl

theorem side_apply (lo hi : FVec Ideal S8x256x256x64 .f32) (d : FVec Ideal S8x256x256 .f32) (b : Fin 8) (p q : Fin 256) (f : Fin 64) :
    side lo hi d (ix4 b p q f)
      = Ideal.div (lo (ix4 b p q f) * (Ideal.ofBits .f32 0x3F800000#32 - d (ix3 b p q)) + hi (ix4 b p q f) * (d (ix3 b p q) - Ideal.ofBits .f32 0x00000000#32))
          (Ideal.ofBits .f32 0x3F800000#32) := by
  show Ideal.div (lo (ix4 b p q f) * ((broadcastInDim S8x256x256x64 ![0, 1, 2, 3] bcast_S8x256x256x1_S8x256x256x64_0_1_2_3
        (broadcastInDim S8x256x256x1 ![0, 1, 2] bcast_S8x256x256_S8x256x256x1_0_1_2
          (subf (broadcastInDim S8x256x256 ![] bcast_S_S8x256x256 (constant (F := Ideal) S_ .f32 0x3F800000#32)) d))) (ix4 b p q f))
      + hi (ix4 b p q f) * ((broadcastInDim S8x256x256x64 ![0, 1, 2, 3] bcast_S8x256x256x1_S8x256x256x64_0_1_2_3
        (broadcastInDim S8x256x256x1 ![0, 1, 2] bcast_S8x256x256_S8x256x256x1_0_1_2
          (subf d (broadcastInDim S8x256x256 ![] bcast_S_S8x256x256 (constant (F := Ideal) S_ .f32 0x00000000#32))))) (ix4 b p q f)))
      ((broadcastInDim S8x256x256x64 ![] bcast_S_S8x256x256x64 (constant (F := Ideal) S_ .f32 0x3F800000#32)) (ix4 b p q f)) = _
  rw [bcast_abc1_abcn_apply, bcast_abc_abc1_apply, bcast_abc1_abcn_apply, bcast_abc_abc1_apply, bcast_scalar_apply]
  show Ideal.div (lo (ix4 b p q f) * ((broadcastInDim S8x256x256 ![] bcast_S_S8x256x256 (constant (F := Ideal) S_ .f32 0x3F800000#32)) (ix3 b p q) - d (ix3 b p q))
      + hi (ix4 b p q f) * (d (ix3 b p q) - (broadcastInDim S8x256x256 ![] bcast_S_S8x256x256 (constant (F := Ideal) S_ .f32 0x00000000#32)) (ix3 b p q)))
      (Ideal.ofBits .f32 0x3F800000#32) = _
  rw [bcast_scalar_apply, bcast_scalar_apply]
  rfl

end Cert.Proof.RefTail

end
-- ==== Proof.LibOpenLists.lean ====
/-
  Two programs' host operations read side by side. A line of host operations turns the buffers' contents before it into
  the contents after it (the fold `after`). Opened operation by operation, the contents of one result buffer become a
  term in the contents the line started from; when two programs apply the same operations in the same order to contents
  that agree, the two terms are the same term, and an equation between a buffer of one and a buffer of the other is
  closed without unfolding any operation (a gather, a scatter, a sort stay closed). A line cut in two is read through
  the cut; a change of float format is the identity on extended reals, so a table rounded to another format is the table.
-/
import Idealize.ShloMosaic.Lib.StableHlo.Run
import Idealize.ShloMosaic.PureOps.Ideal

noncomputable section

namespace Cert.OpenLists

open Idealize.ShloMosaic Idealize.ShloMosaic.StableHlo

/-- Two lines run one after the other: the contents after the second, from the contents after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- A table rounded to a narrower float format is the table, on extended reals. -/
theorem truncf_id {s : Shape} {φ ψ : FTy} (a : FVec Ideal s φ) (h : ψ.bits < φ.bits) : (truncf ψ a h : FVec Ideal s ψ) = a := rfl

/-- A table widened to a wider float format is the table, on extended reals. -/
theorem extf_id {s : Shape} {φ ψ : FTy} (a : FVec Ideal s φ) (h : φ.bits < ψ.bits) : (extf ψ a h : FVec Ideal s ψ) = a := rfl

/-- Opens every `after <literal list> V (Proc.devRef .tc r)` in the goal, on both sides of an equation and in every
    conjunct, down to the contents the lines started from, in one pass; hypotheses that relate the two programs' starting
    contents (`vk … = vr …`) are rewritten on the way. What is left, if anything, is an equation between the same operations
    spelt in the two programs' vocabularies: `rfl` — provided no side is applied to an index or wrapped in something `rfl`
    would have to unfold. -/
macro "open_lists" "[" hs:Lean.Parser.Tactic.simpLemma,* "]" : tactic =>
  `(tactic| (simp (disch := decide) only [after_append, after_cons, after_nil,
      nullary_result', unary_result', binary_result', ternary_result', quaternary_result', reshape_result',
      nullary_result_ne', unary_result_ne', binary_result_ne', ternary_result_ne', quaternary_result_ne', reshape_result_ne',
      cast_eq, truncf_id, extf_id, and_self, and_true, true_and, $hs,*]))

end Cert.OpenLists

end
-- ==== Proof.Bridge.lean ====
/-
  The two programs side by side.

  Both programs compute their first result, and the flags valid(b, p) = (p < length b), by the SAME host operations in
  the same order; opened operation by operation from the result buffer down to the arguments, the two sides are one
  term in the launch contents, which agree on the arguments. No operation of that chain is ever unfolded (the three
  table lookups and the floored remainder stay closed).

  For the second result the kernel program turns the flags into two 32-bit arrays, one laid along the rows ([8, 256, 1])
  and one along the columns ([8, 1, 256]), and its launch leaves `Gk` of them; the reference forms the pair mask and
  looks the tables up. Read at an index (b, p, q, f), with u = valid(b, p) and v = valid(b, q): the kernel's element is
  `cell` of the tables' rows at f, the two planes at (b, p, q) and the words u, v widened; the reference's is the row
  (u AND v) of each table with the same weights, each half divided by one. The element law joins them, and it is here that
  the tables' entries are taken to be real numbers.
-/
import proofs.«158873_j60696477827085_1_alg».proof.Proof.RefRun
import proofs.«158873_j60696477827085_1_alg».proof.Proof.RefTail
import proofs.«158873_j60696477827085_1_alg».proof.Proof.LibOpenLists
import proofs.«158873_j60696477827085_1_alg».proof.Proof.Spec
import proofs.«158873_j60696477827085_1_alg».proof.Proof.KernelBlock

noncomputable section

namespace Cert.Proof.Bridge

open Idealize.ShloMosaic Idealize.ShloMosaic.StableHlo Idealize.ShloMosaic.TcCoe Idealize.SL.Sem Idealize.ShloMosaic.ValueIdx
open Cert.OpenLists Cert.MaskLayout

/-! ## The reference's second result as `tail` -/

set_option maxHeartbeats 4000000 in
/-- Over the operations after the first result: the second result is `tail` of the distance array, the flags buffer and
    the four tables, whatever the contents before them. -/
theorem tail_eq2 (W : Valuation Cert.ReferenceIdeal.τ Cert.ReferenceIdeal.sig (Elt Ideal)) :
    after (Cert.ReferenceIdeal.RefRun.ops2 (F := Ideal)) W (Cert.ReferenceIdeal.main_v104 : DevRef Cert.ReferenceIdeal.τ Cert.ReferenceIdeal.sig)
      = Cert.Proof.RefTail.tail (W (Cert.ReferenceIdeal.main_arg1 : DevRef Cert.ReferenceIdeal.τ Cert.ReferenceIdeal.sig))
          (after (Cert.ReferenceIdeal.RefRun.ops2 (F := Ideal)) W (Cert.ReferenceIdeal.main_v43 : DevRef Cert.ReferenceIdeal.τ Cert.ReferenceIdeal.sig))
          (W (Cert.ReferenceIdeal.main_arg7 : DevRef Cert.ReferenceIdeal.τ Cert.ReferenceIdeal.sig)) (W (Cert.ReferenceIdeal.main_arg6 : DevRef Cert.ReferenceIdeal.τ Cert.ReferenceIdeal.sig)) (W (Cert.ReferenceIdeal.main_arg9 : DevRef Cert.ReferenceIdeal.τ Cert.ReferenceIdeal.sig)) (W (Cert.ReferenceIdeal.main_arg8 : DevRef Cert.ReferenceIdeal.τ Cert.ReferenceIdeal.sig)) := by
  open_lists [Cert.ReferenceIdeal.RefRun.ops2, Cert.ReferenceIdeal.RefRun.ops2a, Cert.ReferenceIdeal.RefRun.ops2b, Cert.ReferenceIdeal.RefRun.ops2c]
  rfl

set_option maxHeartbeats 4000000 in
/-- The operations up to the first result write none of the arguments the second result reads. -/
theorem ops1_keeps (V : Valuation Cert.ReferenceIdeal.τ Cert.ReferenceIdeal.sig (Elt Ideal)) :
    after (Cert.ReferenceIdeal.RefRun.ops1 (F := Ideal)) V (Cert.ReferenceIdeal.main_arg1 : DevRef Cert.ReferenceIdeal.τ Cert.ReferenceIdeal.sig) = V (Cert.ReferenceIdeal.main_arg1 : DevRef Cert.ReferenceIdeal.τ Cert.ReferenceIdeal.sig)
    ∧ after (Cert.ReferenceIdeal.RefRun.ops1 (F := Ideal)) V (Cert.ReferenceIdeal.main_arg6 : DevRef Cert.ReferenceIdeal.τ Cert.ReferenceIdeal.sig) = V (Cert.ReferenceIdeal.main_arg6 : DevRef Cert.ReferenceIdeal.τ Cert.ReferenceIdeal.sig)
    ∧ after (Cert.ReferenceIdeal.RefRun.ops1 (F := Ideal)) V (Cert.ReferenceIdeal.main_arg7 : DevRef Cert.ReferenceIdeal.τ Cert.ReferenceIdeal.sig) = V (Cert.ReferenceIdeal.main_arg7 : DevRef Cert.ReferenceIdeal.τ Cert.ReferenceIdeal.sig)
    ∧ after (Cert.ReferenceIdeal.RefRun.ops1 (F := Ideal)) V (Cert.ReferenceIdeal.main_arg8 : DevRef Cert.ReferenceIdeal.τ Cert.ReferenceIdeal.sig) = V (Cert.ReferenceIdeal.main_arg8 : DevRef Cert.ReferenceIdeal.τ Cert.ReferenceIdeal.sig)
    ∧ after (Cert.ReferenceIdeal.RefRun.ops1 (F := Ideal)) V (Cert.ReferenceIdeal.main_arg9 : DevRef Cert.ReferenceIdeal.τ Cert.ReferenceIdeal.sig) = V (Cert.ReferenceIdeal.main_arg9 : DevRef Cert.ReferenceIdeal.τ Cert.ReferenceIdeal.sig) := by
  open_lists [Cert.ReferenceIdeal.RefRun.ops1]

/-- The reference's second result is `tail` of the distance array, the flags buffer and the four tables. -/
theorem tail_eq (V : Valuation Cert.ReferenceIdeal.τ Cert.ReferenceIdeal.sig (Elt Ideal)) :
    after (Cert.ReferenceIdeal.RefRun.ops (F := Ideal)) V (Cert.ReferenceIdeal.main_v104 : DevRef Cert.ReferenceIdeal.τ Cert.ReferenceIdeal.sig)
      = Cert.Proof.RefTail.tail (V (Cert.ReferenceIdeal.main_arg1 : DevRef Cert.ReferenceIdeal.τ Cert.ReferenceIdeal.sig))
          (after (Cert.ReferenceIdeal.RefRun.ops (F := Ideal)) V (Cert.ReferenceIdeal.main_v43 : DevRef Cert.ReferenceIdeal.τ Cert.ReferenceIdeal.sig))
          (V (Cert.ReferenceIdeal.main_arg7 : DevRef Cert.ReferenceIdeal.τ Cert.ReferenceIdeal.sig)) (V (Cert.ReferenceIdeal.main_arg6 : DevRef Cert.ReferenceIdeal.τ Cert.ReferenceIdeal.sig)) (V (Cert.ReferenceIdeal.main_arg9 : DevRef Cert.ReferenceIdeal.τ Cert.ReferenceIdeal.sig)) (V (Cert.ReferenceIdeal.main_arg8 : DevRef Cert.ReferenceIdeal.τ Cert.ReferenceIdeal.sig)) := by
  obtain ⟨k1, k6, k7, k8, k9⟩ := ops1_keeps V
  rw [Cert.ReferenceIdeal.RefRun.after_ops, tail_eq2, k1, k6, k7, k8, k9]

/-! ## The chains the two programs share -/

set_option maxHeartbeats 4000000 in
/-- The flags buffer is the same chain of operations of the lengths in both programs. -/
theorem vld_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    after (Cert.ReferenceIdeal.RefRun.ops (F := Ideal)) (launchContents m' c) (Cert.ReferenceIdeal.main_v43 : DevRef Cert.ReferenceIdeal.τ Cert.ReferenceIdeal.sig) = Cert.KernelIdeal.Gen.V m c Cert.KernelIdeal.main_v39 := by
  have e2 : launchContents m' c (Proc.devRef .tc Cert.ReferenceIdeal.main_arg2) = m (c, Proc.devRef .tc Cert.KernelIdeal.main_arg2) := h2
  dsimp only [Cert.KernelIdeal.Gen.V]
  open_lists [Cert.ReferenceIdeal.RefRun.ops, Cert.ReferenceIdeal.RefRun.ops1, Cert.ReferenceIdeal.RefRun.ops2, Cert.ReferenceIdeal.RefRun.ops2a, Cert.ReferenceIdeal.RefRun.ops2b, Cert.ReferenceIdeal.RefRun.ops2c, Cert.KernelIdeal.Gen.hostOps0, Cert.KernelIdeal.Gen.hostOps0_1, Cert.KernelIdeal.Gen.hostOps0_2, List.flatten_cons, List.flatten_nil, List.append_nil, List.cons_append, List.nil_append, e2]

set_option maxHeartbeats 16000000 in
/-- The first result is the same chain of operations of the first, fourth, fifth and sixth arguments in both programs. -/
theorem joint_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.RefRun.ops (F := Ideal)) (launchContents m' c) (Cert.ReferenceIdeal.main_v33 : DevRef Cert.ReferenceIdeal.τ Cert.ReferenceIdeal.sig) = Cert.KernelIdeal.Gen.V m c Cert.KernelIdeal.main_v33 := by
  have e0 : launchContents m' c (Proc.devRef .tc Cert.ReferenceIdeal.main_arg0) = m (c, Proc.devRef .tc Cert.KernelIdeal.main_arg0) := h0
  have e3 : launchContents m' c (Proc.devRef .tc Cert.ReferenceIdeal.main_arg3) = m (c, Proc.devRef .tc Cert.KernelIdeal.main_arg3) := h3
  have e4 : launchContents m' c (Proc.devRef .tc Cert.ReferenceIdeal.main_arg4) = m (c, Proc.devRef .tc Cert.KernelIdeal.main_arg4) := h4
  have e5 : launchContents m' c (Proc.devRef .tc Cert.ReferenceIdeal.main_arg5) = m (c, Proc.devRef .tc Cert.KernelIdeal.main_arg5) := h5
  dsimp only [Cert.KernelIdeal.Gen.V]
  open_lists [Cert.ReferenceIdeal.RefRun.ops, Cert.ReferenceIdeal.RefRun.ops1, Cert.ReferenceIdeal.RefRun.ops2, Cert.ReferenceIdeal.RefRun.ops2a, Cert.ReferenceIdeal.RefRun.ops2b, Cert.ReferenceIdeal.RefRun.ops2c, Cert.KernelIdeal.Gen.hostOps0, Cert.KernelIdeal.Gen.hostOps0_1, Cert.KernelIdeal.Gen.hostOps0_2, List.flatten_cons, List.flatten_nil, List.append_nil, List.cons_append, List.nil_append, e0, e3, e4, e5]
  rfl

set_option maxHeartbeats 4000000 in
/-- The kernel program's two flag arrays are the flags widened to 32-bit words, laid along the rows and along the columns. -/
theorem flags_eq (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v41
        = broadcastInDim Cert.KernelIdeal.S8x256x1 ![0, 1] Cert.KernelIdeal.Facts₀.bcast_S8x256_S8x256x1_0_1 (extui 32 (Cert.KernelIdeal.Gen.V m c Cert.KernelIdeal.main_v39) Cert.KernelIdeal.Facts₀.natLt_1_32)
    ∧ Cert.KernelIdeal.Gen.V m c Cert.KernelIdeal.main_v42
        = broadcastInDim Cert.KernelIdeal.S8x1x256 ![0, 2] Cert.KernelIdeal.Facts₀.bcast_S8x256_S8x1x256_0_2 (extui 32 (Cert.KernelIdeal.Gen.V m c Cert.KernelIdeal.main_v39) Cert.KernelIdeal.Facts₀.natLt_1_32) := by
  dsimp only [Cert.KernelIdeal.Gen.V]
  open_lists [Cert.KernelIdeal.Gen.hostOps0, Cert.KernelIdeal.Gen.hostOps0_1, Cert.KernelIdeal.Gen.hostOps0_2, List.flatten_cons, List.flatten_nil, List.append_nil, List.cons_append, List.nil_append]

/-! ## The second result, element by element -/

/-- The row the reference's lookup lands on is row 1 when both flags are set and row 0 otherwise. -/
theorem rowOf_flags (u v : BitVec 1) :
    Cert.Proof.RefTail.rowOf ((u &&& v).setWidth 32) = if u &&& v = 1#1 then (1 : Fin 2) else (0 : Fin 2) := by
  rcases BitVec.eq_zero_or_eq_one u with hu | hu <;> rcases BitVec.eq_zero_or_eq_one v with hv | hv <;> subst hu <;> subst hv <;> decide

/-- THE ELEMENT EQUATION over arbitrary arrays: for a distance array, flags and four tables with REAL entries, the
    reference's `tail` and the kernel's `Gk` (of the flags widened and laid along the rows and along the columns) agree
    at every index (b, p, q, f). -/
theorem elem_eq (A1 : FVec Ideal Cert.KernelIdeal.S8x256x256x2 .f32) (vld : IVec Cert.KernelIdeal.S8x256 1) (T7 T6 T9 T8 : FVec Ideal Cert.KernelIdeal.S2x64 .f32)
    (r7 : ∀ i, ∃ r : ℝ, T7 i = (r : EReal)) (r6 : ∀ i, ∃ r : ℝ, T6 i = (r : EReal))
    (r9 : ∀ i, ∃ r : ℝ, T9 i = (r : EReal)) (r8 : ∀ i, ∃ r : ℝ, T8 i = (r : EReal))
    (b : Fin 8) (p q : Fin 256) (f : Fin 64) :
    Cert.Proof.RefTail.tail A1 vld T7 T6 T9 T8 (ix4 b p q f)
      = Cert.Proof.KernelBlock.Gk A1
          (broadcastInDim Cert.KernelIdeal.S8x256x1 ![0, 1] Cert.KernelIdeal.Facts₀.bcast_S8x256_S8x256x1_0_1 (extui 32 vld Cert.KernelIdeal.Facts₀.natLt_1_32))
          (broadcastInDim Cert.KernelIdeal.S8x1x256 ![0, 2] Cert.KernelIdeal.Facts₀.bcast_S8x256_S8x1x256_0_2 (extui 32 vld Cert.KernelIdeal.Facts₀.natLt_1_32))
          T7 T6 T9 T8 (ix4 b p q f) := by
  obtain ⟨s0, hs0⟩ := r7 (ix2 (0 : Fin 2) f)
  obtain ⟨s1, hs1⟩ := r7 (ix2 (1 : Fin 2) f)
  obtain ⟨u0, hu0⟩ := r6 (ix2 (0 : Fin 2) f)
  obtain ⟨u1, hu1⟩ := r6 (ix2 (1 : Fin 2) f)
  obtain ⟨t0, ht0⟩ := r9 (ix2 (0 : Fin 2) f)
  obtain ⟨t1, ht1⟩ := r9 (ix2 (1 : Fin 2) f)
  obtain ⟨w0, hw0⟩ := r8 (ix2 (0 : Fin 2) f)
  obtain ⟨w1, hw1⟩ := r8 (ix2 (1 : Fin 2) f)
  -- the kernel's side: the twelve inputs of `cell` at (b, p, q, f)
  have hk : Cert.Proof.KernelBlock.Gk A1
      (broadcastInDim Cert.KernelIdeal.S8x256x1 ![0, 1] Cert.KernelIdeal.Facts₀.bcast_S8x256_S8x256x1_0_1 (extui 32 vld Cert.KernelIdeal.Facts₀.natLt_1_32))
      (broadcastInDim Cert.KernelIdeal.S8x1x256 ![0, 2] Cert.KernelIdeal.Facts₀.bcast_S8x256_S8x1x256_0_2 (extui 32 vld Cert.KernelIdeal.Facts₀.natLt_1_32))
      T7 T6 T9 T8 (ix4 b p q f)
      = Cert.Proof.Spec.cell (s0 : EReal) s1 u0 u1 t0 t1 w0 w1 (A1 (ix4 b p q (0 : Fin 2))) (A1 (ix4 b p q (1 : Fin 2)))
          ((vld (ix2 b p)).setWidth 32) ((vld (ix2 b q)).setWidth 32) := by
    show Cert.Proof.Spec.cell (T7 (ix2 (0 : Fin 2) f)) (T7 (ix2 (1 : Fin 2) f)) (T6 (ix2 (0 : Fin 2) f)) (T6 (ix2 (1 : Fin 2) f))
        (T9 (ix2 (0 : Fin 2) f)) (T9 (ix2 (1 : Fin 2) f)) (T8 (ix2 (0 : Fin 2) f)) (T8 (ix2 (1 : Fin 2) f))
        (A1 (ix4 b p q (0 : Fin 2))) (A1 (ix4 b p q (1 : Fin 2)))
        ((broadcastInDim Cert.KernelIdeal.S8x256x1 ![0, 1] Cert.KernelIdeal.Facts₀.bcast_S8x256_S8x256x1_0_1 (extui 32 vld Cert.KernelIdeal.Facts₀.natLt_1_32)) (ix3 b p (0 : Fin 1)))
        ((broadcastInDim Cert.KernelIdeal.S8x1x256 ![0, 2] Cert.KernelIdeal.Facts₀.bcast_S8x256_S8x1x256_0_2 (extui 32 vld Cert.KernelIdeal.Facts₀.natLt_1_32)) (ix3 b (0 : Fin 1) q)) = _
    rw [bcast_ab_ab1_apply, bcast_ac_a1c_apply, hs0, hs1, hu0, hu1, ht0, ht1, hw0, hw1]
    rfl
  rw [hk, Cert.Proof.Spec.cell_eq]
  -- the reference's side
  show Cert.Proof.RefTail.side (Cert.Proof.RefTail.rows T7 (Cert.Proof.RefTail.mask vld)) (Cert.Proof.RefTail.rows T6 (Cert.Proof.RefTail.mask vld)) (Cert.Proof.RefTail.plane0 A1) (ix4 b p q f)
      + Cert.Proof.RefTail.side (Cert.Proof.RefTail.rows T9 (Cert.Proof.RefTail.mask vld)) (Cert.Proof.RefTail.rows T8 (Cert.Proof.RefTail.mask vld)) (Cert.Proof.RefTail.plane1 A1) (ix4 b p q f) = _
  rw [Cert.Proof.RefTail.side_apply, Cert.Proof.RefTail.side_apply, Cert.Proof.RefTail.rows_apply, Cert.Proof.RefTail.rows_apply,
    Cert.Proof.RefTail.rows_apply, Cert.Proof.RefTail.rows_apply, Cert.Proof.RefTail.mask_apply, Cert.Proof.RefTail.plane0_apply,
    Cert.Proof.RefTail.plane1_apply, rowOf_flags]
  by_cases hc : vld (ix2 b p) &&& vld (ix2 b q) = 1#1
  · simp only [if_pos hc, hs1, hu1, ht1, hw1]
  · simp only [if_neg hc, hs0, hu0, ht0, hw0]

/-- THE SECOND RESULTS AGREE at every index: the reference's, read off its run, and the kernel's `Gk` of the arrays its
    launch finds — given that the launch contents agree on the arguments and the four tables hold real numbers. -/
theorem delta_apply (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (r6 : ∀ i : Cert.KernelIdeal.S2x64.Idx, ∃ r : ℝ, (m ((c.tc : Thread Cert.KernelIdeal.nD Cert.KernelIdeal.τ).loc Cert.KernelIdeal.main_arg6) : FVec Ideal Cert.KernelIdeal.S2x64 .f32) i = (r : EReal))
    (r7 : ∀ i : Cert.KernelIdeal.S2x64.Idx, ∃ r : ℝ, (m ((c.tc : Thread Cert.KernelIdeal.nD Cert.KernelIdeal.τ).loc Cert.KernelIdeal.main_arg7) : FVec Ideal Cert.KernelIdeal.S2x64 .f32) i = (r : EReal))
    (r8 : ∀ i : Cert.KernelIdeal.S2x64.Idx, ∃ r : ℝ, (m ((c.tc : Thread Cert.KernelIdeal.nD Cert.KernelIdeal.τ).loc Cert.KernelIdeal.main_arg8) : FVec Ideal Cert.KernelIdeal.S2x64 .f32) i = (r : EReal))
    (r9 : ∀ i : Cert.KernelIdeal.S2x64.Idx, ∃ r : ℝ, (m ((c.tc : Thread Cert.KernelIdeal.nD Cert.KernelIdeal.τ).loc Cert.KernelIdeal.main_arg9) : FVec Ideal Cert.KernelIdeal.S2x64 .f32) i = (r : EReal))
    (b : Fin 8) (p q : Fin 256) (f : Fin 64) :
    (after (Cert.ReferenceIdeal.RefRun.ops (F := Ideal)) (launchContents m' c) (Cert.ReferenceIdeal.main_v104 : DevRef Cert.ReferenceIdeal.τ Cert.ReferenceIdeal.sig) : FVec Ideal Cert.KernelIdeal.S8x256x256x64 .f32) (ix4 b p q f)
      = Cert.Proof.KernelBlock.Gk (Cert.KernelIdeal.Gen.V m c Cert.KernelIdeal.main_arg1) (Cert.KernelIdeal.Gen.V m c Cert.KernelIdeal.main_v41) (Cert.KernelIdeal.Gen.V m c Cert.KernelIdeal.main_v42)
          (Cert.KernelIdeal.Gen.V m c Cert.KernelIdeal.main_arg7) (Cert.KernelIdeal.Gen.V m c Cert.KernelIdeal.main_arg6) (Cert.KernelIdeal.Gen.V m c Cert.KernelIdeal.main_arg9) (Cert.KernelIdeal.Gen.V m c Cert.KernelIdeal.main_arg8) (ix4 b p q f) := by
  have a1 : launchContents m' c (Proc.devRef .tc Cert.ReferenceIdeal.main_arg1) = Cert.KernelIdeal.Gen.V m c Cert.KernelIdeal.main_arg1 := h1.trans (Cert.KernelIdeal.Gen.V_main_arg1 m c).symm
  have a6 : launchContents m' c (Proc.devRef .tc Cert.ReferenceIdeal.main_arg6) = Cert.KernelIdeal.Gen.V m c Cert.KernelIdeal.main_arg6 := h6.trans (Cert.KernelIdeal.Gen.V_main_arg6 m c).symm
  have a7 : launchContents m' c (Proc.devRef .tc Cert.ReferenceIdeal.main_arg7) = Cert.KernelIdeal.Gen.V m c Cert.KernelIdeal.main_arg7 := h7.trans (Cert.KernelIdeal.Gen.V_main_arg7 m c).symm
  have a8 : launchContents m' c (Proc.devRef .tc Cert.ReferenceIdeal.main_arg8) = Cert.KernelIdeal.Gen.V m c Cert.KernelIdeal.main_arg8 := h8.trans (Cert.KernelIdeal.Gen.V_main_arg8 m c).symm
  have a9 : launchContents m' c (Proc.devRef .tc Cert.ReferenceIdeal.main_arg9) = Cert.KernelIdeal.Gen.V m c Cert.KernelIdeal.main_arg9 := h9.trans (Cert.KernelIdeal.Gen.V_main_arg9 m c).symm
  obtain ⟨f41, f42⟩ := flags_eq m c
  rw [tail_eq, vld_eq m m' c h2, a1, a6, a7, a8, a9, f41, f42]
  rw [← Cert.KernelIdeal.Gen.V_main_arg6 m c] at r6
  rw [← Cert.KernelIdeal.Gen.V_main_arg7 m c] at r7
  rw [← Cert.KernelIdeal.Gen.V_main_arg8 m c] at r8
  rw [← Cert.KernelIdeal.Gen.V_main_arg9 m c] at r9
  exact elem_eq (Cert.KernelIdeal.Gen.V m c Cert.KernelIdeal.main_arg1) (Cert.KernelIdeal.Gen.V m c Cert.KernelIdeal.main_v39) (Cert.KernelIdeal.Gen.V m c Cert.KernelIdeal.main_arg7) (Cert.KernelIdeal.Gen.V m c Cert.KernelIdeal.main_arg6)
    (Cert.KernelIdeal.Gen.V m c Cert.KernelIdeal.main_arg9) (Cert.KernelIdeal.Gen.V m c Cert.KernelIdeal.main_arg8) r7 r6 r9 r8 b p q f

end Cert.Proof.Bridge

end
-- ==== Proof.lean ====
/-
  Kernel and reference compute the same two arrays on the extended reals, given finite float inputs.

  Inputs: a trajectory of integer triples [8, 256, 3], a distance array [8, 256, 256, 2] (a spatial and a temporal
  plane), a length per batch [8], three embedding tables, and four two-row tables [2, 64].

  First result [8, 256, 64]: the sum of three table rows picked by the trajectory's entries (one of them through a
  floored remainder). Both programs compute it by the same host operations in the same order, so it is the same term of
  the arguments (Proof/Bridge.lean, `joint_eq`).

  Second result [8, 256, 256, 64]. With valid(b, p) = (p < length b), element (b, p, q, f) is
      (e_sl · (1 − ds) + e_su · (ds − 0)) / 1  +  (e_tl · (1 − dt) + e_tu · (dt − 0)) / 1,
  where ds, dt are the two planes at (b, p, q) and each e_x is row (valid(b, p) AND valid(b, q)) of table x at feature f.
  The reference looks the rows up by index. The kernel receives the flags as two 32-bit arrays (along the rows, along the
  columns), picks each row arithmetically as row0 + (flag_p · flag_q) · (row1 − row0), and scales by the literal one
  instead of dividing by it; it fills the output block by block over an 8 × 4 grid. The proof:
    * Proof/KernelBlock.lean — what the launch leaves in the output array is ONE function `Gk` of the arrays it reads
      (each grid point writes the block of `Gk` under it; the 32 blocks tile the array);
    * Proof/RefRun.lean — the reference is a straight line of 148 host operations, and its run ends with every buffer
      at the operations' fold over the launch contents;
    * Proof/RefTail.lean, Proof/LibMaskLayout.lean — the reference's second result read at an index;
    * Proof/Spec.lean — the element law: for REAL table rows, row0 + w · (row1 − row0) with w the product of two 0/1
      flags is the row picked by their conjunction, and x · 1 = x / 1;
    * Proof/Finite.lean — the precondition makes the four tables' entries real numbers;
    * Proof/Bridge.lean — the two second results agree at every index.
  The three frame claims are the generated frames of the two kernel programs and, for the reference, its run with the
  results dropped. The idealization rewrote nothing, so there is nothing to preserve beyond the program text itself.
-/
import proofs.«158873_j60696477827085_1_alg».proof.Defs
import proofs.«158873_j60696477827085_1_alg».proof.Proof.Gen.Kernel
import proofs.«158873_j60696477827085_1_alg».proof.Proof.Gen.Kernel.Skeleton
import proofs.«158873_j60696477827085_1_alg».proof.Proof.Gen.Kernel.Launch
import proofs.«158873_j60696477827085_1_alg».proof.Proof.Gen.Kernel.Points
import proofs.«158873_j60696477827085_1_alg».proof.Proof.Gen.Kernel.Frame
import proofs.«158873_j60696477827085_1_alg».proof.Proof.Gen.KernelIdeal
import proofs.«158873_j60696477827085_1_alg».proof.Proof.Gen.KernelIdeal.Skeleton
import proofs.«158873_j60696477827085_1_alg».proof.Proof.Gen.KernelIdeal.Launch
import proofs.«158873_j60696477827085_1_alg».proof.Proof.Gen.KernelIdeal.Points
import proofs.«158873_j60696477827085_1_alg».proof.Proof.Gen.KernelIdeal.Frame
import proofs.«158873_j60696477827085_1_alg».proof.Proof.KernelValuePatched
import proofs.«158873_j60696477827085_1_alg».proof.Proof.Gen.ReferenceIdeal
import proofs.«158873_j60696477827085_1_alg».proof.Proof.Gen.Pre_finite_inputs
import proofs.«158873_j60696477827085_1_alg».proof.Proof.KernelBlock
import proofs.«158873_j60696477827085_1_alg».proof.Proof.RefRun
import proofs.«158873_j60696477827085_1_alg».proof.Proof.Finite
import proofs.«158873_j60696477827085_1_alg».proof.Proof.Bridge
import Idealize.ShloMosaic.Adequacy
import Idealize.ShloMosaic.Init

noncomputable section

namespace Cert.Proof

open Idealize.ShloMosaic Idealize.SL.Sem Idealize.ShloMosaic.ValueIdx

/-- The word-level kernel program runs and leaves its arguments unchanged: its generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged: its generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, with what it says of the other buffers dropped (no
    operation writes an argument). -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
      ⟨(h c Cert.ReferenceIdeal.main_arg0).trans (Cert.ReferenceIdeal.RefRun.arg0_kept _),
        (h c Cert.ReferenceIdeal.main_arg1).trans (Cert.ReferenceIdeal.RefRun.arg1_kept _),
        (h c Cert.ReferenceIdeal.main_arg2).trans (Cert.ReferenceIdeal.RefRun.arg2_kept _),
        (h c Cert.ReferenceIdeal.main_arg3).trans (Cert.ReferenceIdeal.RefRun.arg3_kept _),
        (h c Cert.ReferenceIdeal.main_arg4).trans (Cert.ReferenceIdeal.RefRun.arg4_kept _),
        (h c Cert.ReferenceIdeal.main_arg5).trans (Cert.ReferenceIdeal.RefRun.arg5_kept _),
        (h c Cert.ReferenceIdeal.main_arg6).trans (Cert.ReferenceIdeal.RefRun.arg6_kept _),
        (h c Cert.ReferenceIdeal.main_arg7).trans (Cert.ReferenceIdeal.RefRun.arg7_kept _),
        (h c Cert.ReferenceIdeal.main_arg8).trans (Cert.ReferenceIdeal.RefRun.arg8_kept _),
        (h c Cert.ReferenceIdeal.main_arg9).trans (Cert.ReferenceIdeal.RefRun.arg9_kept _)⟩)
    (Cert.ReferenceIdeal.RefRun.run (F := Ideal) m ρ)

/-- The idealization rewrote no operation. -/
theorem preserves : Cert.preserves_Kernel_KernelIdeal := trivial

/-- From memories that agree on the arguments, with every float input finite, both idealized programs run and end with
    equal results: the first is one chain of host operations in both; the second is `Gk` of the arrays the launch reads on
    the kernel's side and agrees with the reference's element by element. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.Proof.KernelBlock.run m ρ, ?_⟩
  refine (θ_run Cert.ReferenceIdeal.defs _ _).mono (fun r h c => ?_) (Cert.ReferenceIdeal.RefRun.run (F := Ideal) m' ρ')
  obtain ⟨g0, g1, g2, g3, g4, g5, g6, g7, g8, g9⟩ := hagree c
  obtain ⟨t6, t7, t8, t9⟩ := Cert.Proof.Finite.tables_real m hpre c
  refine ⟨(h c Cert.ReferenceIdeal.main_v33).trans (Cert.Proof.Bridge.joint_eq m m' c g0 g3 g4 g5),
    (h c Cert.ReferenceIdeal.main_v104).trans ?_,
    (h c Cert.ReferenceIdeal.main_arg0).trans (Cert.ReferenceIdeal.RefRun.arg0_kept _),
    (h c Cert.ReferenceIdeal.main_arg1).trans (Cert.ReferenceIdeal.RefRun.arg1_kept _),
    (h c Cert.ReferenceIdeal.main_arg2).trans (Cert.ReferenceIdeal.RefRun.arg2_kept _),
    (h c Cert.ReferenceIdeal.main_arg3).trans (Cert.ReferenceIdeal.RefRun.arg3_kept _),
    (h c Cert.ReferenceIdeal.main_arg4).trans (Cert.ReferenceIdeal.RefRun.arg4_kept _),
    (h c Cert.ReferenceIdeal.main_arg5).trans (Cert.ReferenceIdeal.RefRun.arg5_kept _),
    (h c Cert.ReferenceIdeal.main_arg6).trans (Cert.ReferenceIdeal.RefRun.arg6_kept _),
    (h c Cert.ReferenceIdeal.main_arg7).trans (Cert.ReferenceIdeal.RefRun.arg7_kept _),
    (h c Cert.ReferenceIdeal.main_arg8).trans (Cert.ReferenceIdeal.RefRun.arg8_kept _),
    (h c Cert.ReferenceIdeal.main_arg9).trans (Cert.ReferenceIdeal.RefRun.arg9_kept _)⟩
  funext i
  obtain ⟨b, p, q, f, rfl⟩ : ∃ (b : Fin 8) (p q : Fin 256) (f : Fin 64), i = ix4 b p q f := ⟨i 0, i 1, i 2, i 3, eq_ix4 i⟩
  exact Cert.Proof.Bridge.delta_apply m m' c g1 g2 g6 g7 g8 g9 t6 t7 t8 t9 b p q f

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
